-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S1x4096 : Shape := ⟨2, ![1, 4096]⟩
abbrev S4097x1024 : Shape := ⟨2, ![4097, 1024]⟩
abbrev S4097 : Shape := ⟨1, ![4097]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_
  bcast_S_S4097x1024 : S_.BroadcastsInDim S4097x1024 (![] : Fin 0 → Fin S4097x1024.rank)
  reducesTo_S4097x1024_S_d0_1 : S4097x1024.ReducesTo [0, 1] S_
  bcast_S_S4097 : S_.BroadcastsInDim S4097 (![] : Fin 0 → Fin S4097.rank)
  reducesTo_S4097_S_d0 : S4097.ReducesTo [0] S_

variable [Facts]

def fn_part2 {F : FTy → Type} [FloatOps F] (main_arg7 : FVec F S4097x1024 .f32) (main_arg8 : FVec F S4097x1024 .f32) (main_arg9 : FVec F S4097 .f32) (main_v33 : IVec S_ 1) : IVec S_ 1 :=
  let main_v34 : FVec F S4097x1024 .f32 := Host.absf main_arg7
  let main_cst_12 : FVec F S_ .f32 := constant S_ .f32 0x7F800000#32
  let main_v35 : FVec F S4097x1024 .f32 := broadcastInDim S4097x1024 ![] bcast_S_S4097x1024 main_cst_12
  let main_v36 : IVec S4097x1024 1 := cmpf .olt main_v34 main_v35
  let main_c_13 : IVec S_ 1 := constantI S_ 1 1#1
  let main_v37 : IVec S_ 1 := (fun x v => Host.reduce IntOp.andi x v reducesTo_S4097x1024_S_d0_1 h_S_) main_v36 main_c_13
  let main_v38 : IVec S_ 1 := andi main_v33 main_v37
  let main_v39 : FVec F S4097x1024 .f32 := Host.absf main_arg8
  let main_cst_14 : FVec F S_ .f32 := constant S_ .f32 0x7F800000#32
  let main_v40 : FVec F S4097x1024 .f32 := broadcastInDim S4097x1024 ![] bcast_S_S4097x1024 main_cst_14
  let main_v41 : IVec S4097x1024 1 := cmpf .olt main_v39 main_v40
  let main_c_15 : IVec S_ 1 := constantI S_ 1 1#1
  let main_v42 : IVec S_ 1 := (fun x v => Host.reduce IntOp.andi x v reducesTo_S4097x1024_S_d0_1 h_S_) main_v41 main_c_15
  let main_v43 : IVec S_ 1 := andi main_v38 main_v42
  let main_v44 : FVec F S4097 .f32 := Host.absf main_arg9
  let main_cst_16 : FVec F S_ .f32 := constant S_ .f32 0x7F800000#32
  let main_v45 : FVec F S4097 .f32 := broadcastInDim S4097 ![] bcast_S_S4097 main_cst_16
  let main_v46 : IVec S4097 1 := cmpf .olt main_v44 main_v45
  let main_c_17 : IVec S_ 1 := constantI S_ 1 1#1
  let main_v47 : IVec S_ 1 := (fun x v => Host.reduce IntOp.andi x v reducesTo_S4097_S_d0 h_S_) main_v46 main_c_17
  let main_v48 : IVec S_ 1 := andi main_v43 main_v47
  main_v48

def fn_part1 {F : FTy → Type} [FloatOps F] (main_arg4 : FVec F S1x4096 .f32) (main_arg5 : FVec F S1x4096 .f32) (main_arg6 : FVec F S4097x1024 .f32) (main_arg7 : FVec F S4097x1024 .f32) (main_arg8 : FVec F S4097x1024 .f32) (main_arg9 : FVec F S4097 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  let main_v29 : FVec F S4097x1024 .f32 := Host.absf main_arg6
  let main_cst_10 : FVec F S_ .f32 := constant S_ .f32 0x7F800000#32
  let main_v30 : FVec F S4097x1024 .f32 := broadcastInDim S4097x1024 ![] bcast_S_S4097x1024 main_cst_10
  let main_v31 : IVec S4097x1024 1 := cmpf .olt main_v29 main_v30
  let main_c_11 : IVec S_ 1 := constantI S_ 1 1#1
  let main_v32 : IVec S_ 1 := (fun x v => Host.reduce IntOp.andi x v reducesTo_S4097x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x4096 .f32) (main_arg1 : FVec F S1024x4096 .f32) (main_arg2 : FVec F S1024x4096 .f32) (main_arg3 : FVec F S1024x4096 .f32) (main_arg4 : FVec F S1x4096 .f32) (main_arg5 : FVec F S1x4096 .f32) (main_arg6 : FVec F S4097x1024 .f32) (main_arg7 : FVec F S4097x1024 .f32) (main_arg8 : FVec F S4097x1024 .f32) (main_arg9 : FVec F S4097 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_arg9 main_v13 main_v16
-- ==== Kernel.lean ====
abbrev S1024x4096 : Shape := ⟨2, ![1024, 4096]⟩
abbrev S1x4096 : Shape := ⟨2, ![1, 4096]⟩
abbrev S4097x1024 : Shape := ⟨2, ![4097, 1024]⟩
abbrev S4097 : Shape := ⟨1, ![4097]⟩
abbrev S4096x1024 : Shape := ⟨2, ![4096, 1024]⟩
abbrev S4096x3072 : Shape := ⟨2, ![4096, 3072]⟩
abbrev S1x1024 : Shape := ⟨2, ![1, 1024]⟩
abbrev S3x1024 : Shape := ⟨2, ![3, 1024]⟩
abbrev S4097x1 : Shape := ⟨2, ![4097, 1]⟩
abbrev S1024x128 : Shape := ⟨2, ![1024, 128]⟩
abbrev S1x128 : Shape := ⟨2, ![1, 128]⟩
abbrev S3072x128 : Shape := ⟨2, ![3072, 128]⟩
abbrev S4096x128 : Shape := ⟨2, ![4096, 128]⟩
abbrev S4096x1 : Shape := ⟨2, ![4096, 1]⟩
abbrev S1024x1 : Shape := ⟨2, ![1024, 1]⟩
abbrev S1x1 : Shape := ⟨2, ![1, 1]⟩
abbrev S128 : Shape := ⟨1, ![128]⟩

abbrev nBuf : Space → Nat
  | .hbm => 23
  | .vmem => 21
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1x4096, .f32⟩
  | .hbm, ⟨5, _⟩ => ⟨S1x4096, .f32⟩
  | .hbm, ⟨6, _⟩ => ⟨S4097x1024, .f32⟩
  | .hbm, ⟨7, _⟩ => ⟨S4097x1024, .f32⟩
  | .hbm, ⟨8, _⟩ => ⟨S4097x1024, .f32⟩
  | .hbm, ⟨9, _⟩ => ⟨S4097, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x3072, .f32⟩
  | .hbm, ⟨14, _⟩ => ⟨S4096x3072, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S3x1024, .f32⟩
  | .hbm, ⟨19, _⟩ => ⟨S4097x1, .f32⟩
  | .hbm, ⟨20, _⟩ => ⟨S1024x4096, .f32⟩
  | .hbm, ⟨21, _⟩ => ⟨S1024x4096, .f32⟩
  | .hbm, ⟨22, _⟩ => ⟨S1x4096, .f32⟩
  | .local _ .vmem, ⟨0, _⟩ => ⟨S4096x3072, .bf16⟩
  | .local _ .vmem, ⟨1, _⟩ => ⟨S4097x1, .f32⟩
  | .local _ .vmem, ⟨2, _⟩ => ⟨S3x1024, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1x128, .f32⟩
  | .local _ .vmem, ⟨20, _⟩ => ⟨S1x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4097x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S4097x1024_S4096x1024_0_0 : S4097x1024.Slices ![0, 0] S4096x1024
  concatenates_S4096x1024_S4096x1024_S4096x1024_S4096x3072_d1 : Shape.Concatenates [S4096x1024, S4096x1024, S4096x1024] S4096x3072 1
  bitsLt_bf16_f32 : FTy.bits .bf16 < FTy.bits .f32
  slices_S4097x1024_S1x1024_4096_0 : S4097x1024.Slices ![4096, 0] S1x1024
  concatenates_S1x1024_S1x1024_S1x1024_S3x1024_d0 : Shape.Concatenates [S1x1024, S1x1024, S1x1024] S3x1024 0
  shapeCasts_S4097_S4097x1 : S4097.ShapeCasts S4097x1
  inb_S4096x3072_S4096x3072_0_0 : ∀ a, (![0, 0] : Fin 2 → Nat) a + S4096x3072.size a ≤ S4096x3072.size a
  h_S4096x3072 : 0 < S4096x3072.numel
  shapeCasts_S4096x3072_S4096x3072 : S4096x3072.ShapeCasts S4096x3072
  inb_S4097x1_S4097x1_0_0 : ∀ a, (![0, 0] : Fin 2 → Nat) a + S4097x1.size a ≤ S4097x1.size a
  h_S4097x1 : 0 < S4097x1.numel
  shapeCasts_S4097x1_S4097x1 : S4097x1.ShapeCasts S4097x1
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  broadcasts_S1x128_S1024x128 : S1x128.Broadcasts S1024x128
  concatenates_S1024x128_S1024x128_S1024x128_S3072x128_d0 : Shape.Concatenates [S1024x128, S1024x128, S1024x128] S3072x128 0
  slices_S4097x1_o0_0_S4096x1 : S4097x1.Slices ![0, 0] S4096x1
  broadcasts_S4096x1_S4096x128 : S4096x1.Broadcasts S4096x128
  slices_S4096x128_o0_0_S1024x128 : S4096x128.Slices ![0, 0] S1024x128
  slices_S4096x128_o1024_0_S1024x128 : S4096x128.Slices ![1024, 0] S1024x128
  slices_S4096x128_o2048_0_S1024x128 : S4096x128.Slices ![2048, 0] S1024x128
  slices_S4096x128_o3072_0_S1024x128 : S4096x128.Slices ![3072, 0] S1024x128
  slices_S3x1024_o0_0_S1x1024 : S3x1024.Slices ![0, 0] S1x1024
  transposes_S1x1024_p1_0_S1024x1 : S1x1024.Transposes [1, 0] S1024x1
  slices_S3x1024_o1_0_S1x1024 : S3x1024.Slices ![1, 0] S1x1024
  slices_S3x1024_o2_0_S1x1024 : S3x1024.Slices ![2, 0] S1x1024
  slices_S4097x1_o4096_0_S1x1 : S4097x1.Slices ![4096, 0] S1x1
  broadcasts_S1024x1_S1024x128 : S1024x1.Broadcasts S1024x128
  reduces_S1024x128_S128 : S1024x128.Reduces [0] S128
  shapeCasts_S128_S1x128 : S128.ShapeCasts S1x128
  broadcasts_S1x1_S1x128 : S1x1.Broadcasts S1x128
  natLt_1_32 : 1 < 32
  dot_S4096x3072_S3072x128_S4096x128_1_0_0_1_n_n_wf : DotDims.WF S4096x3072 S3072x128 S4096x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x3072.size a ≤ S4096x3072.size a
  hwx0_0 : ∀ i : grid0.Coords, EltTy.bits .bf16 = 32 ∨ (Rect.block (s := S4096x3072) S4096x3072.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4097x1.size a ≤ S4097x1.size a
  hwx0_1 : ∀ i : grid0.Coords, EltTy.bits .f32 = 32 ∨ (Rect.block (s := S4097x1) S4097x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1024.size a ≤ S3x1024.size a
  hwx0_2 : ∀ i : grid0.Coords, EltTy.bits .f32 = 32 ∨ (Rect.block (s := S3x1024) S3x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x4096.size a
  hwx0_3 : ∀ i : grid0.Coords, EltTy.bits .f32 = 32 ∨ (Rect.block (s := S1024x4096) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x4096.size a
  hwx0_4 : ∀ i : grid0.Coords, EltTy.bits .f32 = 32 ∨ (Rect.block (s := S1024x4096) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x4096.size a
  hwx0_5 : ∀ i : grid0.Coords, EltTy.bits .f32 = 32 ∨ (Rect.block (s := S1024x4096) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S1024x4096.size a
  hwx0_6 : ∀ i : grid0.Coords, EltTy.bits .f32 = 32 ∨ (Rect.block (s := S1024x4096) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x4096.size a
  hwx0_7 : ∀ i : grid0.Coords, EltTy.bits .f32 = 32 ∨ (Rect.block (s := S1x4096) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x4096.size a
  hwx0_8 : ∀ i : grid0.Coords, EltTy.bits .f32 = 32 ∨ (Rect.block (s := S1x4096) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S1024x4096.size a
  hwx0_9 : ∀ i : grid0.Coords, EltTy.bits .f32 = 32 ∨ (Rect.block (s := S1024x4096) S1024x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S1024x4096.size a
  hwx0_10 : ∀ i : grid0.Coords, EltTy.bits .f32 = 32 ∨ (Rect.block (s := S1024x4096) S1024x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x4096.size a
  hwx0_11 : ∀ i : grid0.Coords, EltTy.bits .f32 = 32 ∨ (Rect.block (s := S1x4096) S1x128.size (cc0_transform_11 i) (hinb0_11 i)).WholeWords (EltTy.packing .f32)

variable [Facts₀]

def dot_S4096x3072_S3072x128_S4096x128_1_0_0_1_n_n : DotDims S4096x3072 S3072x128 S4096x128 where
  lhsContracting := [1]
  rhsContracting := [0]
  lhsNonContracting := [0]
  rhsNonContracting := [1]
  lhsBatch := []
  rhsBatch := []
  wf := dot_S4096x3072_S3072x128_S4096x128_1_0_0_1_n_n_wf

abbrev win0_0 : Pipeline.Window sig grid0 :=
  Pipeline.Window.ofSpec (Memref.whole main_v4) S4096x3072.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4097x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S3x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S1024x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S1024x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S1024x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_2) S1x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S1x4096 : Shape := ⟨2, ![1, 4096]⟩
abbrev S4097x1024 : Shape := ⟨2, ![4097, 1024]⟩
abbrev S4097 : Shape := ⟨1, ![4097]⟩
abbrev S4097x4096 : Shape := ⟨2, ![4097, 4096]⟩
abbrev S4097x1 : Shape := ⟨2, ![4097, 1]⟩
abbrev S_ : Shape := ⟨0, ![]⟩

abbrev nBuf : Space → Nat
  | .hbm => 120
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1x4096, .f32⟩
  | .hbm, ⟨5, _⟩ => ⟨S1x4096, .f32⟩
  | .hbm, ⟨6, _⟩ => ⟨S4097x1024, .f32⟩
  | .hbm, ⟨7, _⟩ => ⟨S4097x1024, .f32⟩
  | .hbm, ⟨8, _⟩ => ⟨S4097x1024, .f32⟩
  | .hbm, ⟨9, _⟩ => ⟨S4097, .f32⟩
  | .hbm, ⟨10, _⟩ => ⟨S4097x4096, .f32⟩
  | .hbm, ⟨11, _⟩ => ⟨S4097x4096, .f32⟩
  | .hbm, ⟨12, _⟩ => ⟨S4097x4096, .f32⟩
  | .hbm, ⟨13, _⟩ => ⟨S4097x4096, .f32⟩
  | .hbm, ⟨14, _⟩ => ⟨S4097x4096, .f32⟩
  | .hbm, ⟨15, _⟩ => ⟨S4097x4096, .f32⟩
  | .hbm, ⟨16, _⟩ => ⟨S4097x4096, .f32⟩
  | .hbm, ⟨17, _⟩ => ⟨S4097x4096, .f32⟩
  | .hbm, ⟨18, _⟩ => ⟨S4097x4096, .f32⟩
  | .hbm, ⟨19, _⟩ => ⟨S4097x1, .f32⟩
  | .hbm, ⟨20, _⟩ => ⟨S4097x4096, .f32⟩
  | .hbm, ⟨21, _⟩ => ⟨S4097x4096, .f32⟩
  | .hbm, ⟨22, _⟩ => ⟨S1024x4096, .f32⟩
  | .hbm, ⟨23, _⟩ => ⟨S1024x4096, .f32⟩
  | .hbm, ⟨24, _⟩ => ⟨S1024x4096, .f32⟩
  | .hbm, ⟨25, _⟩ => ⟨S_, .f32⟩
  | .hbm, ⟨26, _⟩ => ⟨S1024x4096, .f32⟩
  | .hbm, ⟨27, _⟩ => ⟨S1024x4096, .f32⟩
  | .hbm, ⟨28, _⟩ => ⟨S_, .f32⟩
  | .hbm, ⟨29, _⟩ => ⟨S1024x4096, .f32⟩
  | .hbm, ⟨30, _⟩ => ⟨S1024x4096, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | .hbm, ⟨37, _⟩ => ⟨S_, .f32⟩
  | .hbm, ⟨38, _⟩ => ⟨S1024x4096, .f32⟩
  | .hbm, ⟨39, _⟩ => ⟨S1024x4096, .f32⟩
  | .hbm, ⟨40, _⟩ => ⟨S1024x4096, .f32⟩
  | .hbm, ⟨41, _⟩ => ⟨S1024x4096, .f32⟩
  | .hbm, ⟨42, _⟩ => ⟨S1024x4096, .f32⟩
  | .hbm, ⟨43, _⟩ => ⟨S_, .f32⟩
  | .hbm, ⟨44, _⟩ => ⟨S1024x4096, .f32⟩
  | .hbm, ⟨45, _⟩ => ⟨S1024x4096, .f32⟩
  | .hbm, ⟨46, _⟩ => ⟨S_, .f32⟩
  | .hbm, ⟨47, _⟩ => ⟨S1024x4096, .f32⟩
  | .hbm, ⟨48, _⟩ => ⟨S1024x4096, .f32⟩
  | .hbm, ⟨49, _⟩ => ⟨S1024x4096, .f32⟩
  | .hbm, ⟨50, _⟩ => ⟨S1024x4096, .f32⟩
  | .hbm, ⟨51, _⟩ => ⟨S1x4096, .f32⟩
  | .hbm, ⟨52, _⟩ => ⟨S_, .f32⟩
  | .hbm, ⟨53, _⟩ => ⟨S1x4096, .f32⟩
  | .hbm, ⟨54, _⟩ => ⟨S1x4096, .f32⟩
  | .hbm, ⟨55, _⟩ => ⟨S_, .f32⟩
  | .hbm, ⟨56, _⟩ => ⟨S1x4096, .f32⟩
  | .hbm, ⟨57, _⟩ => ⟨S1x4096, .f32⟩
  | .hbm, ⟨58, _⟩ => ⟨S_, .f32⟩
  | .hbm, ⟨59, _⟩ => ⟨S1x4096, .f32⟩
  | .hbm, ⟨60, _⟩ => ⟨S1x4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x4096, .f32⟩
  | .hbm, ⟨65, _⟩ => ⟨S1x4096, .f32⟩
  | .hbm, ⟨66, _⟩ => ⟨S_, .f32⟩
  | .hbm, ⟨67, _⟩ => ⟨S1x4096, .f32⟩
  | .hbm, ⟨68, _⟩ => ⟨S1x4096, .f32⟩
  | .hbm, ⟨69, _⟩ => ⟨S1024x4096, .f32⟩
  | .hbm, ⟨70, _⟩ => ⟨S1024x4096, .f32⟩
  | .hbm, ⟨71, _⟩ => ⟨S1024x4096, .f32⟩
  | .hbm, ⟨72, _⟩ => ⟨S_, .f32⟩
  | .hbm, ⟨73, _⟩ => ⟨S1x4096, .f32⟩
  | .hbm, ⟨74, _⟩ => ⟨S1x4096, .f32⟩
  | .hbm, ⟨75, _⟩ => ⟨S_, .f32⟩
  | .hbm, ⟨76, _⟩ => ⟨S1x4096, .f32⟩
  | .hbm, ⟨77, _⟩ => ⟨S1x4096, .f32⟩
  | .hbm, ⟨78, _⟩ => ⟨S1x4096, .f32⟩
  | .hbm, ⟨79, _⟩ => ⟨S1024x4096, .f32⟩
  | .hbm, ⟨80, _⟩ => ⟨S1024x4096, .f32⟩
  | .hbm, ⟨81, _⟩ => ⟨S1024x4096, .f32⟩
  | .hbm, ⟨82, _⟩ => ⟨S_, .f32⟩
  | .hbm, ⟨83, _⟩ => ⟨S1x4096, .f32⟩
  | .hbm, ⟨84, _⟩ => ⟨S1x4096, .f32⟩
  | .hbm, ⟨85, _⟩ => ⟨S1x4096, .f32⟩
  | .hbm, ⟨86, _⟩ => ⟨S1024x4096, .f32⟩
  | .hbm, ⟨87, _⟩ => ⟨S1024x4096, .f32⟩
  | .hbm, ⟨88, _⟩ => ⟨S1024x4096, .f32⟩
  | .hbm, ⟨89, _⟩ => ⟨S1024x4096, .f32⟩
  | .hbm, ⟨90, _⟩ => ⟨S1024x4096, .f32⟩
  | .hbm, ⟨91, _⟩ => ⟨S1024x4096, .f32⟩
  | .hbm, ⟨92, _⟩ => ⟨S1024x4096, .f32⟩
  | .hbm, ⟨93, _⟩ => ⟨S1024x4096, .f32⟩
  | .hbm, ⟨94, _⟩ => ⟨S1024x4096, .f32⟩
  | .hbm, ⟨95, _⟩ => ⟨S1024x4096, .f32⟩
  | .hbm, ⟨96, _⟩ => ⟨S_, .f32⟩
  | .hbm, ⟨97, _⟩ => ⟨S1x4096, .f32⟩
  | .hbm, ⟨98, _⟩ => ⟨S1x4096, .f32⟩
  | .hbm, ⟨99, _⟩ => ⟨S_, .f32⟩
  | .hbm, ⟨100, _⟩ => ⟨S1x4096, .f32⟩
  | .hbm, ⟨101, _⟩ => ⟨S1x4096, .f32⟩
  | .hbm, ⟨102, _⟩ => ⟨S1x4096, .f32⟩
  | .hbm, ⟨103, _⟩ => ⟨S1024x4096, .f32⟩
  | .hbm, ⟨104, _⟩ => ⟨S1024x4096, .f32⟩
  | .hbm, ⟨105, _⟩ => ⟨S1024x4096, .f32⟩
  | .hbm, ⟨106, _⟩ => ⟨S_, .f32⟩
  | .hbm, ⟨107, _⟩ => ⟨S1x4096, .f32⟩
  | .hbm, ⟨108, _⟩ => ⟨S1x4096, .f32⟩
  | .hbm, ⟨109, _⟩ => ⟨S1x4096, .f32⟩
  | .hbm, ⟨110, _⟩ => ⟨S1024x4096, .f32⟩
  | .hbm, ⟨111, _⟩ => ⟨S1024x4096, .f32⟩
  | .hbm, ⟨112, _⟩ => ⟨S1024x4096, .f32⟩
  | .hbm, ⟨113, _⟩ => ⟨S1024x4096, .f32⟩
  | .hbm, ⟨114, _⟩ => ⟨S_, .f32⟩
  | .hbm, ⟨115, _⟩ => ⟨S1x4096, .f32⟩
  | .hbm, ⟨116, _⟩ => ⟨S1x4096, .i1⟩
  | .hbm, ⟨117, _⟩ => ⟨S1x4096, .f32⟩
  | .hbm, ⟨118, _⟩ => ⟨S1x4096, .f32⟩
  | .hbm, ⟨119, _⟩ => ⟨S1x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_cst_9 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_12 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  bcast_S1x4096_S4097x4096_0_1 : S1x4096.BroadcastsInDim S4097x4096 (![0, 1] : Fin 2 → Fin S4097x4096.rank)
  bcast_S4097_S4097x1_0 : S4097.BroadcastsInDim S4097x1 (![0] : Fin 1 → Fin S4097x1.rank)
  bcast_S4097x1_S4097x4096_0_1 : S4097x1.BroadcastsInDim S4097x4096 (![0, 1] : Fin 2 → Fin S4097x4096.rank)
  slices_S4097x4096_S1024x4096_0_0 : S4097x4096.Slices ![0, 0] S1024x4096
  bcast_S_S1024x4096 : S_.BroadcastsInDim S1024x4096 (![] : Fin 0 → Fin S1024x4096.rank)
  slices_S4097x4096_S1024x4096_1024_0 : S4097x4096.Slices ![1024, 0] S1024x4096
  slices_S4097x4096_S1024x4096_2048_0 : S4097x4096.Slices ![2048, 0] S1024x4096
  slices_S4097x4096_S1024x4096_3072_0 : S4097x4096.Slices ![3072, 0] S1024x4096
  slices_S4097x4096_S1x4096_4096_0 : S4097x4096.Slices ![4096, 0] S1x4096
  bcast_S_S1x4096 : S_.BroadcastsInDim S1x4096 (![] : Fin 0 → Fin S1x4096.rank)
  bcast_S1x4096_S1024x4096_0_1 : S1x4096.BroadcastsInDim S1024x4096 (![0, 1] : Fin 2 → Fin S1024x4096.rank)
  dot_S4097x1024_S1024x4096_S4097x4096_1_0_0_1_n_n_wf : DotDims.WF S4097x1024 S1024x4096 S4097x4096 [1] [0] [0] [1] [] []

variable [Facts₀]

def dot_S4097x1024_S1024x4096_S4097x4096_1_0_0_1_n_n : DotDims S4097x1024 S1024x4096 S4097x4096 where
  lhsContracting := [1]
  rhsContracting := [0]
  lhsNonContracting := [0]
  rhsNonContracting := [1]
  lhsBatch := []
  rhsBatch := []
  wf := dot_S4097x1024_S1024x4096_S4097x4096_1_0_0_1_n_n_wf

class Facts : Prop extends Facts₀ where

variable [Facts]
-- ==== Proof.WordLaunch.lean ====
/-
  The launch of the one kernel of `Kernel` read as a function of its argument arrays, at any reading of the floats.

  The program first cuts its three weight matrices into their first 4096 rows, joined side by side into a
  [4096, 3072] matrix, and their last rows, stacked into a [3, 1024] matrix, and recasts the bias as a column;
  then one kernel runs over 32 grid points, point `t` seeing columns 128·t … 128·t+127 of the four
  [1024, 4096] activations and of the two [1, 4096] gates, and the three prepared arrays whole.
  At each point the body loads its nine input blocks whole, computes, and stores three blocks whole:
  what it stores is a function of the nine blocks alone (`out0_9`, `out0_10`, `out0_11` below).
  From that: every execution ends, nothing faults, every argument array ends as it began, and each result
  array ends at what the written-back blocks make of it.
-/
import proofs.«149303_j13778255086021_2_alg».proof.Proof.Gen.Kernel.Launch
import proofs.«149303_j13778255086021_2_alg».proof.Proof.Gen.Kernel.Skeleton
import proofs.«149303_j13778255086021_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the launch finds them -/

/-- Core `c`'s arrays when the kernel is launched: the memory after the ten preparing operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its preparing operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 9: the launch finds it as it was. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## A window's block at a grid point -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, whether the point fetched it or not
    (an unfetched window's block index has not moved since the point that did). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that ends with every window's array at what its write-backs make of it and every other array as the
    launch found it: an argument a window reads is never written back, an argument no window reads is untouched,
    and no preparing operation writes an argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 6).trans (((dats 0 c).arrAt_in 6 rfl _).trans ((hA c 6).trans (V_main_arg0 m c))),
      ((h c).1 3).trans (((dats 0 c).arrAt_in 3 rfl _).trans ((hA c 3).trans (V_main_arg1 m c))),
      ((h c).1 5).trans (((dats 0 c).arrAt_in 5 rfl _).trans ((hA c 5).trans (V_main_arg2 m c))),
      ((h c).1 4).trans (((dats 0 c).arrAt_in 4 rfl _).trans ((hA c 4).trans (V_main_arg3 m c))),
      ((h c).1 7).trans (((dats 0 c).arrAt_in 7 rfl _).trans ((hA c 7).trans (V_main_arg4 m c))),
      ((h c).1 8).trans (((dats 0 c).arrAt_in 8 rfl _).trans ((hA c 8).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses: each buffer whole -/

abbrev rW : Rect S4096x3072 := Rect.unit (s := S4096x3072) ![0, 0] S4096x3072.size inb_S4096x3072_S4096x3072_0_0
abbrev rB : Rect S4097x1 := Rect.unit (s := S4097x1) ![0, 0] S4097x1.size inb_S4097x1_S4097x1_0_0
abbrev rL : Rect S3x1024 := Rect.unit (s := S3x1024) ![0, 0] S3x1024.size inb_S3x1024_S3x1024_0_0
abbrev rT : Rect S1024x128 := Rect.unit (s := S1024x128) ![0, 0] S1024x128.size inb_S1024x128_S1024x128_0_0
abbrev rZ : Rect S1x128 := Rect.unit (s := S1x128) ![0, 0] S1x128.size inb_S1x128_S1x128_0_0

/-! ## What the body leaves in each result window's buffer -/

/-- The new hidden state's block: the one store into window 9, as a function of the nine input blocks. -/
def out0_9 (x0 : Vec F S4096x3072 .bf16) (x1 : Vec F S4097x1 .f32) (x2 : Vec F S3x1024 .f32) (x3 : Vec F S1024x128 .f32) (x4 : Vec F S1024x128 .f32) (x5 : Vec F S1024x128 .f32) (x6 : Vec F S1024x128 .f32) (x7 : Vec F S1x128 .f32) (x8 : Vec F S1x128 .f32) : Vec F S1024x128 .f32 :=
  View.canon [⟨rT, (k0_pay2 (View.ld x5 rT) (View.ld x7 rZ) (View.ld x8 rZ) (k0_pay8 (View.ld x0 rW) (View.ld x1 rB) (View.ld x3 rT) (View.ld x4 rT) (View.ld x5 rT) (View.ld x7 rZ) (View.ld x8 rZ)) (k0_pay16 (View.ld x6 rT) (View.ld x7 rZ) (View.ld x8 rZ) (k0_pay7 (View.ld x0 rW) (View.ld x1 rB) (View.ld x3 rT) (View.ld x4 rT) (View.ld x5 rT) (View.ld x7 rZ) (View.ld x8 rZ)) (k0_pay9 (View.ld x0 rW) (View.ld x1 rB) (View.ld x3 rT) (View.ld x4 rT) (View.ld x5 rT) (View.ld x7 rZ) (View.ld x8 rZ))) (k0_pay17 (View.ld x6 rT) (k0_pay6 (View.ld x0 rW) (View.ld x1 rB) (View.ld x3 rT) (View.ld x4 rT) (View.ld x5 rT) (View.ld x7 rZ) (View.ld x8 rZ)) (k0_pay7 (View.ld x0 rW) (View.ld x1 rB) (View.ld x3 rT) (View.ld x4 rT) (View.ld x5 rT) (View.ld x7 rZ) (View.ld x8 rZ)) (k0_pay9 (View.ld x0 rW) (View.ld x1 rB) (View.ld x3 rT) (View.ld x4 rT) (View.ld x5 rT) (View.ld x7 rZ) (View.ld x8 rZ))) (k0_pay18 (View.ld x7 rZ) (View.ld x8 rZ)))⟩]
/-- The new cell state's block: the one store into window 10. -/
def out0_10 (x0 : Vec F S4096x3072 .bf16) (x1 : Vec F S4097x1 .f32) (x2 : Vec F S3x1024 .f32) (x3 : Vec F S1024x128 .f32) (x4 : Vec F S1024x128 .f32) (x5 : Vec F S1024x128 .f32) (x6 : Vec F S1024x128 .f32) (x7 : Vec F S1x128 .f32) (x8 : Vec F S1x128 .f32) : Vec F S1024x128 .f32 :=
  View.canon [⟨rT, (k0_pay1 (k0_pay16 (View.ld x6 rT) (View.ld x7 rZ) (View.ld x8 rZ) (k0_pay7 (View.ld x0 rW) (View.ld x1 rB) (View.ld x3 rT) (View.ld x4 rT) (View.ld x5 rT) (View.ld x7 rZ) (View.ld x8 rZ)) (k0_pay9 (View.ld x0 rW) (View.ld x1 rB) (View.ld x3 rT) (View.ld x4 rT) (View.ld x5 rT) (View.ld x7 rZ) (View.ld x8 rZ))) (k0_pay17 (View.ld x6 rT) (k0_pay6 (View.ld x0 rW) (View.ld x1 rB) (View.ld x3 rT) (View.ld x4 rT) (View.ld x5 rT) (View.ld x7 rZ) (View.ld x8 rZ)) (k0_pay7 (View.ld x0 rW) (View.ld x1 rB) (View.ld x3 rT) (View.ld x4 rT) (View.ld x5 rT) (View.ld x7 rZ) (View.ld x8 rZ)) (k0_pay9 (View.ld x0 rW) (View.ld x1 rB) (View.ld x3 rT) (View.ld x4 rT) (View.ld x5 rT) (View.ld x7 rZ) (View.ld x8 rZ))) (k0_pay18 (View.ld x7 rZ) (View.ld x8 rZ)))⟩]
/-- The new boundary indicator's block: the one store into window 11. -/
def out0_11 (x0 : Vec F S4096x3072 .bf16) (x1 : Vec F S4097x1 .f32) (x2 : Vec F S3x1024 .f32) (x3 : Vec F S1024x128 .f32) (x4 : Vec F S1024x128 .f32) (x5 : Vec F S1024x128 .f32) (x6 : Vec F S1024x128 .f32) (x7 : Vec F S1x128 .f32) (x8 : Vec F S1x128 .f32) : Vec F S1x128 .f32 :=
  View.canon [⟨rZ, (k0_pay14 (View.ld x3 rT) (View.ld x4 rT) (View.ld x5 rT) (View.ld x7 rZ) (View.ld x8 rZ) (k0_pay10 (View.ld x2 rL)) (k0_pay11 (View.ld x2 rL)) (k0_pay12 (View.ld x1 rB)) (k0_pay13 (View.ld x2 rL)))⟩]

/-- A store of the whole block covers it. -/
theorem coverT (p0 : Vec F S1024x128 .f32) (y : S1024x128.Idx) :
    ∃ pc ∈ ([⟨rT, p0⟩] : List (View.Piece (Elt F) S1024x128 .f32)), y ∈ pc.1.set :=
  View.cover_of_tiled [⟨rT, p0⟩] S1024x128.size (by rfl) y
theorem coverZ (p0 : Vec F S1x128 .f32) (y : S1x128.Idx) :
    ∃ pc ∈ ([⟨rZ, p0⟩] : List (View.Piece (Elt F) S1x128 .f32)), y ∈ pc.1.set :=
  View.cover_of_tiled [⟨rZ, p0⟩] S1x128.size (by rfl) y

/-! ## The body's triple -/

set_option maxHeartbeats 4000000 in
/-- The body on whole buffers, the nine inputs' at contents `x0 … x8` and the three results' at anything, runs to a
    state holding the inputs' as they were and each result's at its function of the inputs. -/
theorem sound_kernel (c : Dev nD) (E : Set ℕ) (i : grid0.Coords) (arg1 : Memref sig .tc .vmem S4096x3072 .bf16) (harg1 : arg1.IsWhole) (arg2 : Memref sig .tc .vmem S4097x1 .f32) (harg2 : arg2.IsWhole) (arg3 : Memref sig .tc .vmem S3x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole)
    (x0 : Vec F S4096x3072 .bf16) (x1 : Vec F S4097x1 .f32) (x2 : Vec F S3x1024 .f32) (x3 : Vec F S1024x128 .f32) (x4 : Vec F S1024x128 .f32) (x5 : Vec F S1024x128 .f32) (x6 : Vec F S1024x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8)) -∗ K ⟨⟩))
      ⊢ wp frame (wpE (defs₀ (F := F)) Variants.none c none) E (cc0__hm_lstm_kernel i arg1 harg1 arg2 harg2 arg3 harg3 arg4 harg4 arg5 harg5 arg6 harg6 arg7 harg7 arg8 harg8 arg9 harg9 arg10 harg10 arg11 harg11 arg12 harg12) K := by
  simp only [cc0__hm_lstm_kernel_eq_skeleton]; unfold cc0__hm_lstm_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (coverT _)
  isplitl [H10]
  · iexists _; isplitr
    swap; · iexact H10
    ipureintro
    try dsimp only
    exact View.read_writes_eq_canon _ _ _ (coverT _)
  iexists _; isplitr
  swap; · iexact H11
  ipureintro
  try dsimp only
  exact View.read_writes_eq_canon _ _ _ (coverZ _)

/-! ## What every buffer holds at every point -/

/-- After the body at point `t`: each input's buffer at its block, each result's at its function of the input
    blocks; nothing is carried from point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
    | ⟨11, _⟩ => out0_11 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at a grid point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, faulting nowhere, with every window's array at what its
    write-backs make of it and every other array as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its ten argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Launched

end
-- ==== Proof.IdealLaunch.lean ====
/-
  The launch of the one kernel of `KernelIdeal` read as a function of its argument arrays, at any reading of the floats.

  The program first cuts its three weight matrices into their first 4096 rows, joined side by side into a
  [4096, 3072] matrix, and their last rows, stacked into a [3, 1024] matrix, and recasts the bias as a column;
  then one kernel runs over 32 grid points, point `t` seeing columns 128·t … 128·t+127 of the four
  [1024, 4096] activations and of the two [1, 4096] gates, and the three prepared arrays whole.
  At each point the body loads its nine input blocks whole, computes, and stores three blocks whole:
  what it stores is a function of the nine blocks alone (`out0_9`, `out0_10`, `out0_11` below).
  From that: every execution ends, nothing faults, every argument array ends as it began, and each result
  array ends at what the written-back blocks make of it.
-/
import proofs.«149303_j13778255086021_2_alg».proof.Proof.Gen.KernelIdeal.Launch
import proofs.«149303_j13778255086021_2_alg».proof.Proof.Gen.KernelIdeal.Skeleton
import proofs.«149303_j13778255086021_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the launch finds them -/

/-- Core `c`'s arrays when the kernel is launched: the memory after the ten preparing operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its preparing operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the launch writes argument 9: the launch finds it as it was. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## A window's block at a grid point -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, whether the point fetched it or not
    (an unfetched window's block index has not moved since the point that did). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that ends with every window's array at what its write-backs make of it and every other array as the
    launch found it: an argument a window reads is never written back, an argument no window reads is untouched,
    and no preparing operation writes an argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 6).trans (((dats 0 c).arrAt_in 6 rfl _).trans ((hA c 6).trans (V_main_arg0 m c))),
      ((h c).1 3).trans (((dats 0 c).arrAt_in 3 rfl _).trans ((hA c 3).trans (V_main_arg1 m c))),
      ((h c).1 5).trans (((dats 0 c).arrAt_in 5 rfl _).trans ((hA c 5).trans (V_main_arg2 m c))),
      ((h c).1 4).trans (((dats 0 c).arrAt_in 4 rfl _).trans ((hA c 4).trans (V_main_arg3 m c))),
      ((h c).1 7).trans (((dats 0 c).arrAt_in 7 rfl _).trans ((hA c 7).trans (V_main_arg4 m c))),
      ((h c).1 8).trans (((dats 0 c).arrAt_in 8 rfl _).trans ((hA c 8).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses: each buffer whole -/

abbrev rW : Rect S4096x3072 := Rect.unit (s := S4096x3072) ![0, 0] S4096x3072.size inb_S4096x3072_S4096x3072_0_0
abbrev rB : Rect S4097x1 := Rect.unit (s := S4097x1) ![0, 0] S4097x1.size inb_S4097x1_S4097x1_0_0
abbrev rL : Rect S3x1024 := Rect.unit (s := S3x1024) ![0, 0] S3x1024.size inb_S3x1024_S3x1024_0_0
abbrev rT : Rect S1024x128 := Rect.unit (s := S1024x128) ![0, 0] S1024x128.size inb_S1024x128_S1024x128_0_0
abbrev rZ : Rect S1x128 := Rect.unit (s := S1x128) ![0, 0] S1x128.size inb_S1x128_S1x128_0_0

/-! ## What the body leaves in each result window's buffer -/

/-- The new hidden state's block: the one store into window 9, as a function of the nine input blocks. -/
def out0_9 (x0 : Vec F S4096x3072 .bf16) (x1 : Vec F S4097x1 .f32) (x2 : Vec F S3x1024 .f32) (x3 : Vec F S1024x128 .f32) (x4 : Vec F S1024x128 .f32) (x5 : Vec F S1024x128 .f32) (x6 : Vec F S1024x128 .f32) (x7 : Vec F S1x128 .f32) (x8 : Vec F S1x128 .f32) : Vec F S1024x128 .f32 :=
  View.canon [⟨rT, (k0_pay2 (View.ld x5 rT) (View.ld x7 rZ) (View.ld x8 rZ) (k0_pay8 (View.ld x0 rW) (View.ld x1 rB) (View.ld x3 rT) (View.ld x4 rT) (View.ld x5 rT) (View.ld x7 rZ) (View.ld x8 rZ)) (k0_pay16 (View.ld x6 rT) (View.ld x7 rZ) (View.ld x8 rZ) (k0_pay7 (View.ld x0 rW) (View.ld x1 rB) (View.ld x3 rT) (View.ld x4 rT) (View.ld x5 rT) (View.ld x7 rZ) (View.ld x8 rZ)) (k0_pay9 (View.ld x0 rW) (View.ld x1 rB) (View.ld x3 rT) (View.ld x4 rT) (View.ld x5 rT) (View.ld x7 rZ) (View.ld x8 rZ))) (k0_pay17 (View.ld x6 rT) (k0_pay6 (View.ld x0 rW) (View.ld x1 rB) (View.ld x3 rT) (View.ld x4 rT) (View.ld x5 rT) (View.ld x7 rZ) (View.ld x8 rZ)) (k0_pay7 (View.ld x0 rW) (View.ld x1 rB) (View.ld x3 rT) (View.ld x4 rT) (View.ld x5 rT) (View.ld x7 rZ) (View.ld x8 rZ)) (k0_pay9 (View.ld x0 rW) (View.ld x1 rB) (View.ld x3 rT) (View.ld x4 rT) (View.ld x5 rT) (View.ld x7 rZ) (View.ld x8 rZ))) (k0_pay18 (View.ld x7 rZ) (View.ld x8 rZ)))⟩]
/-- The new cell state's block: the one store into window 10. -/
def out0_10 (x0 : Vec F S4096x3072 .bf16) (x1 : Vec F S4097x1 .f32) (x2 : Vec F S3x1024 .f32) (x3 : Vec F S1024x128 .f32) (x4 : Vec F S1024x128 .f32) (x5 : Vec F S1024x128 .f32) (x6 : Vec F S1024x128 .f32) (x7 : Vec F S1x128 .f32) (x8 : Vec F S1x128 .f32) : Vec F S1024x128 .f32 :=
  View.canon [⟨rT, (k0_pay1 (k0_pay16 (View.ld x6 rT) (View.ld x7 rZ) (View.ld x8 rZ) (k0_pay7 (View.ld x0 rW) (View.ld x1 rB) (View.ld x3 rT) (View.ld x4 rT) (View.ld x5 rT) (View.ld x7 rZ) (View.ld x8 rZ)) (k0_pay9 (View.ld x0 rW) (View.ld x1 rB) (View.ld x3 rT) (View.ld x4 rT) (View.ld x5 rT) (View.ld x7 rZ) (View.ld x8 rZ))) (k0_pay17 (View.ld x6 rT) (k0_pay6 (View.ld x0 rW) (View.ld x1 rB) (View.ld x3 rT) (View.ld x4 rT) (View.ld x5 rT) (View.ld x7 rZ) (View.ld x8 rZ)) (k0_pay7 (View.ld x0 rW) (View.ld x1 rB) (View.ld x3 rT) (View.ld x4 rT) (View.ld x5 rT) (View.ld x7 rZ) (View.ld x8 rZ)) (k0_pay9 (View.ld x0 rW) (View.ld x1 rB) (View.ld x3 rT) (View.ld x4 rT) (View.ld x5 rT) (View.ld x7 rZ) (View.ld x8 rZ))) (k0_pay18 (View.ld x7 rZ) (View.ld x8 rZ)))⟩]
/-- The new boundary indicator's block: the one store into window 11. -/
def out0_11 (x0 : Vec F S4096x3072 .bf16) (x1 : Vec F S4097x1 .f32) (x2 : Vec F S3x1024 .f32) (x3 : Vec F S1024x128 .f32) (x4 : Vec F S1024x128 .f32) (x5 : Vec F S1024x128 .f32) (x6 : Vec F S1024x128 .f32) (x7 : Vec F S1x128 .f32) (x8 : Vec F S1x128 .f32) : Vec F S1x128 .f32 :=
  View.canon [⟨rZ, (k0_pay14 (View.ld x3 rT) (View.ld x4 rT) (View.ld x5 rT) (View.ld x7 rZ) (View.ld x8 rZ) (k0_pay10 (View.ld x2 rL)) (k0_pay11 (View.ld x2 rL)) (k0_pay12 (View.ld x1 rB)) (k0_pay13 (View.ld x2 rL)))⟩]

/-- A store of the whole block covers it. -/
theorem coverT (p0 : Vec F S1024x128 .f32) (y : S1024x128.Idx) :
    ∃ pc ∈ ([⟨rT, p0⟩] : List (View.Piece (Elt F) S1024x128 .f32)), y ∈ pc.1.set :=
  View.cover_of_tiled [⟨rT, p0⟩] S1024x128.size (by rfl) y
theorem coverZ (p0 : Vec F S1x128 .f32) (y : S1x128.Idx) :
    ∃ pc ∈ ([⟨rZ, p0⟩] : List (View.Piece (Elt F) S1x128 .f32)), y ∈ pc.1.set :=
  View.cover_of_tiled [⟨rZ, p0⟩] S1x128.size (by rfl) y

/-! ## The body's triple -/

set_option maxHeartbeats 4000000 in
/-- The body on whole buffers, the nine inputs' at contents `x0 … x8` and the three results' at anything, runs to a
    state holding the inputs' as they were and each result's at its function of the inputs. -/
theorem sound_kernel (c : Dev nD) (E : Set ℕ) (i : grid0.Coords) (arg1 : Memref sig .tc .vmem S4096x3072 .bf16) (harg1 : arg1.IsWhole) (arg2 : Memref sig .tc .vmem S4097x1 .f32) (harg2 : arg2.IsWhole) (arg3 : Memref sig .tc .vmem S3x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole)
    (x0 : Vec F S4096x3072 .bf16) (x1 : Vec F S4097x1 .f32) (x2 : Vec F S3x1024 .f32) (x3 : Vec F S1024x128 .f32) (x4 : Vec F S1024x128 .f32) (x5 : Vec F S1024x128 .f32) (x6 : Vec F S1024x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8)) -∗ K ⟨⟩))
      ⊢ wp frame (wpE (defs₀ (F := F)) Variants.none c none) E (cc0__hm_lstm_kernel i arg1 harg1 arg2 harg2 arg3 harg3 arg4 harg4 arg5 harg5 arg6 harg6 arg7 harg7 arg8 harg8 arg9 harg9 arg10 harg10 arg11 harg11 arg12 harg12) K := by
  simp only [cc0__hm_lstm_kernel_eq_skeleton]; unfold cc0__hm_lstm_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (coverT _)
  isplitl [H10]
  · iexists _; isplitr
    swap; · iexact H10
    ipureintro
    try dsimp only
    exact View.read_writes_eq_canon _ _ _ (coverT _)
  iexists _; isplitr
  swap; · iexact H11
  ipureintro
  try dsimp only
  exact View.read_writes_eq_canon _ _ _ (coverZ _)

/-! ## What every buffer holds at every point -/

/-- After the body at point `t`: each input's buffer at its block, each result's at its function of the input
    blocks; nothing is carried from point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
    | ⟨11, _⟩ => out0_11 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at a grid point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program ends, faulting nowhere, with every window's array at what its
    write-backs make of it and every other array as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its ten argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Launched

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.Prepared.lean ====
/-
  What the kernel's three prepared operands hold, entry by entry, and each window's block at a grid point.

  Before the launch the program cuts the three weight matrices W (bottom-up), U' (top-down) and U (recurrent),
  each [4097, 1024], into their first 4096 rows — joined side by side, W then U' then U, into a [4096, 3072]
  matrix — and their last rows — stacked, in the same order, into a [3, 1024] matrix —, and views the bias
  vector as a [4097, 1] column.  So entry (r, k) of the joined matrix is W(r, k), U'(r, k − 1024) or
  U(r, k − 2048) according to the stretch of 1024 columns k lies in; row j of the stacked matrix is the last row
  of the j-th matrix; entry (r, 0) of the column is bias(r).  (The joined matrix is recast to a narrower float
  format, which does not change an extended real.)
  At grid point t the kernel sees the three prepared operands whole, and columns 128·t … 128·t + 127 of the four
  activation arrays and of the two indicator rows.
-/
import proofs.«149303_j13778255086021_2_alg».proof.Proof.IdealLaunch
import proofs.«149303_j13778255086021_2_alg».proof.Proof.LibKeepdims
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Prepared

open Cert.KernelIdeal Cert.KernelIdeal.Gen Cert.KernelIdeal.Launched
open Idealize.ShloMosaic Idealize.ShloMosaic.TcCoe Idealize.SL.Sem Idealize.ShloMosaic.StableHlo Idealize.ShloMosaic.ValueIdx

/-- A host operation over a literal family of three operands: its result, with each operand's contents read at its
    own buffer. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The buffers after the preparing operations, one operation at a time: an operation's result at its own buffer is
    its function of its operands' contents, at another buffer what was there. -/
macro "prepared_reads" : tactic =>
  `(tactic| (simp only [after_cons, after_nil]
             repeat (first
               | rw [nary3_result] | rw [unary_result] | rw [reshape_result]
               | (rw [unary_result_ne]; rotate_left; decide)
               | (rw [reshape_result_ne]; rotate_left; decide)
               | (rw [nary_result_ne]; rotate_left; decide))))

variable (m : (ℓ : Loc nD τ sig) → Buf (Elt Ideal) ℓ)

/-- The joined weights: the first 4096 rows of W, U', U side by side. -/
theorem joined_eq (c : Dev nD) : @Eq (S4096x3072.Idx → EReal) (V m c main_v4)
    (truncf (F := Ideal) .bf16 (concatenate S4096x3072 1
        [⟨S4096x1024, extractStridedSlice S4096x1024 ![0, 0] (m ((c : Thread nD τ).loc main_arg8)) slices_S4097x1024_S4096x1024_0_0⟩,
         ⟨S4096x1024, extractStridedSlice S4096x1024 ![0, 0] (m ((c : Thread nD τ).loc main_arg7)) slices_S4097x1024_S4096x1024_0_0⟩,
         ⟨S4096x1024, extractStridedSlice S4096x1024 ![0, 0] (m ((c : Thread nD τ).loc main_arg6)) slices_S4097x1024_S4096x1024_0_0⟩]
        concatenates_S4096x1024_S4096x1024_S4096x1024_S4096x3072_d1) bitsLt_bf16_f32) := by
  dsimp only [V, hostOps0]
  prepared_reads
  rfl

/-- The stacked last rows of W, U', U. -/
theorem stacked_eq (c : Dev nD) : @Eq (S3x1024.Idx → EReal) (V m c main_v8)
    (concatenate S3x1024 0
        [⟨S1x1024, extractStridedSlice S1x1024 ![4096, 0] (m ((c : Thread nD τ).loc main_arg8)) slices_S4097x1024_S1x1024_4096_0⟩,
         ⟨S1x1024, extractStridedSlice S1x1024 ![4096, 0] (m ((c : Thread nD τ).loc main_arg7)) slices_S4097x1024_S1x1024_4096_0⟩,
         ⟨S1x1024, extractStridedSlice S1x1024 ![4096, 0] (m ((c : Thread nD τ).loc main_arg6)) slices_S4097x1024_S1x1024_4096_0⟩]
        concatenates_S1x1024_S1x1024_S1x1024_S3x1024_d0) := by
  dsimp only [V, hostOps0]
  prepared_reads
  rfl

/-- The bias as a column. -/
theorem column_eq (c : Dev nD) : @Eq (S4097x1.Idx → EReal) (V m c main_v9)
    (shapeCast S4097x1 (m ((c : Thread nD τ).loc main_arg9)) shapeCasts_S4097_S4097x1) := by
  dsimp only [V, hostOps0]
  prepared_reads
  rfl

/-! ## The prepared arrays at an entry -/

/-- Three [4096, 1024] pieces side by side: column k of the s-th stretch of 1024 columns is column k of piece s. -/
theorem side_by_side (x0 x1 x2 : S4096x1024.Idx → EReal) (r : Fin 4096) (k : Fin 1024) :
    concatenate S4096x3072 1 [⟨S4096x1024, x0⟩, ⟨S4096x1024, x1⟩, ⟨S4096x1024, x2⟩]
        concatenates_S4096x1024_S4096x1024_S4096x1024_S4096x3072_d1 (ix2 r (⟨k.val, by omega⟩ : Fin 3072)) = x0 (ix2 r k)
    ∧ concatenate S4096x3072 1 [⟨S4096x1024, x0⟩, ⟨S4096x1024, x1⟩, ⟨S4096x1024, x2⟩]
        concatenates_S4096x1024_S4096x1024_S4096x1024_S4096x3072_d1 (ix2 r (⟨1024 + k.val, by omega⟩ : Fin 3072)) = x1 (ix2 r k)
    ∧ concatenate S4096x3072 1 [⟨S4096x1024, x0⟩, ⟨S4096x1024, x1⟩, ⟨S4096x1024, x2⟩]
        concatenates_S4096x1024_S4096x1024_S4096x1024_S4096x3072_d1 (ix2 r (⟨2048 + k.val, by omega⟩ : Fin 3072)) = x2 (ix2 r k) := by
  have hi : ∀ (j : Fin 3072) (b : Fin S4096x1024.rank), b.cast (rfl : S4096x1024.rank = S4096x3072.rank) ≠ (1 : Fin 2) →
      ((ix2 r k : S4096x1024.Idx) b).val = ((ix2 r j : S4096x3072.Idx) (b.cast rfl)).val := fun j b hb => by
    match b with
    | ⟨0, _⟩ => rfl
    | ⟨1, _⟩ => exact absurd rfl hb
  refine ⟨?_, ?_, ?_⟩
  · exact concatenate_apply_piece (t := S4096x3072) 1 [⟨S4096x1024, x0⟩, ⟨S4096x1024, x1⟩, ⟨S4096x1024, x2⟩] concatenates_S4096x1024_S4096x1024_S4096x1024_S4096x3072_d1 _ 0 (by show 0 < 3; omega) S4096x1024 x0 rfl rfl 0 rfl (ix2 r k) (hi _) (Nat.zero_add _)
  · exact concatenate_apply_piece (t := S4096x3072) 1 [⟨S4096x1024, x0⟩, ⟨S4096x1024, x1⟩, ⟨S4096x1024, x2⟩] concatenates_S4096x1024_S4096x1024_S4096x1024_S4096x3072_d1 _ 1 (by show 1 < 3; omega) S4096x1024 x1 rfl rfl 1024 rfl (ix2 r k) (hi _) rfl
  · exact concatenate_apply_piece (t := S4096x3072) 1 [⟨S4096x1024, x0⟩, ⟨S4096x1024, x1⟩, ⟨S4096x1024, x2⟩] concatenates_S4096x1024_S4096x1024_S4096x1024_S4096x3072_d1 _ 2 (by show 2 < 3; omega) S4096x1024 x2 rfl rfl 2048 rfl (ix2 r k) (hi _) rfl

/-- The joined weights at (r, k), k in the first stretch: W(r, k). -/
theorem joined_W (c : Dev nD) (r : Fin 4096) (k : Fin 1024) :
    (V m c main_v4 : S4096x3072.Idx → EReal) (ix2 r (⟨k.val, by omega⟩ : Fin 3072))
      = m ((c : Thread nD τ).loc main_arg8) (ix2 (⟨r.val, by omega⟩ : Fin 4097) k) := by
  refine (congrFun (joined_eq m c) _).trans ?_
  refine ((side_by_side _ _ _ r k).1).trans ?_
  exact slice2_axis0_apply 0 _ _ r k _ (by show r.val = 0 + r.val; omega)
/-- … in the second stretch: U'(r, k). -/
theorem joined_U' (c : Dev nD) (r : Fin 4096) (k : Fin 1024) :
    (V m c main_v4 : S4096x3072.Idx → EReal) (ix2 r (⟨1024 + k.val, by omega⟩ : Fin 3072))
      = m ((c : Thread nD τ).loc main_arg7) (ix2 (⟨r.val, by omega⟩ : Fin 4097) k) := by
  refine (congrFun (joined_eq m c) _).trans ?_
  refine ((side_by_side _ _ _ r k).2.1).trans ?_
  exact slice2_axis0_apply 0 _ _ r k _ (by show r.val = 0 + r.val; omega)
/-- … in the third stretch: U(r, k). -/
theorem joined_U (c : Dev nD) (r : Fin 4096) (k : Fin 1024) :
    (V m c main_v4 : S4096x3072.Idx → EReal) (ix2 r (⟨2048 + k.val, by omega⟩ : Fin 3072))
      = m ((c : Thread nD τ).loc main_arg6) (ix2 (⟨r.val, by omega⟩ : Fin 4097) k) := by
  refine (congrFun (joined_eq m c) _).trans ?_
  refine ((side_by_side _ _ _ r k).2.2).trans ?_
  exact slice2_axis0_apply 0 _ _ r k _ (by show r.val = 0 + r.val; omega)

/-- Row j of the stacked matrix is the last row (row 4096) of the j-th weight matrix. -/
theorem stacked_rows (c : Dev nD) (k : Fin 1024) :
    (V m c main_v8 : S3x1024.Idx → EReal) (ix2 (0 : Fin 3) k) = m ((c : Thread nD τ).loc main_arg8) (ix2 (⟨4096, by omega⟩ : Fin 4097) k)
    ∧ (V m c main_v8 : S3x1024.Idx → EReal) (ix2 (1 : Fin 3) k) = m ((c : Thread nD τ).loc main_arg7) (ix2 (⟨4096, by omega⟩ : Fin 4097) k)
    ∧ (V m c main_v8 : S3x1024.Idx → EReal) (ix2 (2 : Fin 3) k) = m ((c : Thread nD τ).loc main_arg6) (ix2 (⟨4096, by omega⟩ : Fin 4097) k) := by
  have hi : ∀ (j : Fin 3) (b : Fin S1x1024.rank), b.cast (rfl : S1x1024.rank = S3x1024.rank) ≠ (0 : Fin 2) →
      ((ix2 (0 : Fin 1) k : S1x1024.Idx) b).val = ((ix2 j k : S3x1024.Idx) (b.cast rfl)).val := fun j b hb => by
    match b with
    | ⟨0, _⟩ => exact absurd rfl hb
    | ⟨1, _⟩ => rfl
  refine ⟨?_, ?_, ?_⟩
  · refine (congrFun (stacked_eq m c) _).trans ?_
    refine (concatenate_apply_piece (t := S3x1024) 0 [⟨S1x1024, (extractStridedSlice S1x1024 ![4096, 0] (m ((c : Thread nD τ).loc main_arg8)) slices_S4097x1024_S1x1024_4096_0 : S1x1024.Idx → EReal)⟩, ⟨S1x1024, (extractStridedSlice S1x1024 ![4096, 0] (m ((c : Thread nD τ).loc main_arg7)) slices_S4097x1024_S1x1024_4096_0 : S1x1024.Idx → EReal)⟩, ⟨S1x1024, (extractStridedSlice S1x1024 ![4096, 0] (m ((c : Thread nD τ).loc main_arg6)) slices_S4097x1024_S1x1024_4096_0 : S1x1024.Idx → EReal)⟩] concatenates_S1x1024_S1x1024_S1x1024_S3x1024_d0 (ix2 (0 : Fin 3) k) 0 (by show 0 < 3; omega) S1x1024 _ rfl rfl 0 rfl (ix2 (0 : Fin 1) k) (hi _) rfl).trans ?_
    exact slice2_axis0_apply 4096 _ slices_S4097x1024_S1x1024_4096_0 (0 : Fin 1) k _ rfl
  · refine (congrFun (stacked_eq m c) _).trans ?_
    refine (concatenate_apply_piece (t := S3x1024) 0 [⟨S1x1024, (extractStridedSlice S1x1024 ![4096, 0] (m ((c : Thread nD τ).loc main_arg8)) slices_S4097x1024_S1x1024_4096_0 : S1x1024.Idx → EReal)⟩, ⟨S1x1024, (extractStridedSlice S1x1024 ![4096, 0] (m ((c : Thread nD τ).loc main_arg7)) slices_S4097x1024_S1x1024_4096_0 : S1x1024.Idx → EReal)⟩, ⟨S1x1024, (extractStridedSlice S1x1024 ![4096, 0] (m ((c : Thread nD τ).loc main_arg6)) slices_S4097x1024_S1x1024_4096_0 : S1x1024.Idx → EReal)⟩] concatenates_S1x1024_S1x1024_S1x1024_S3x1024_d0 (ix2 (1 : Fin 3) k) 1 (by show 1 < 3; omega) S1x1024 _ rfl rfl 1 rfl (ix2 (0 : Fin 1) k) (hi _) rfl).trans ?_
    exact slice2_axis0_apply 4096 _ slices_S4097x1024_S1x1024_4096_0 (0 : Fin 1) k _ rfl
  · refine (congrFun (stacked_eq m c) _).trans ?_
    refine (concatenate_apply_piece (t := S3x1024) 0 [⟨S1x1024, (extractStridedSlice S1x1024 ![4096, 0] (m ((c : Thread nD τ).loc main_arg8)) slices_S4097x1024_S1x1024_4096_0 : S1x1024.Idx → EReal)⟩, ⟨S1x1024, (extractStridedSlice S1x1024 ![4096, 0] (m ((c : Thread nD τ).loc main_arg7)) slices_S4097x1024_S1x1024_4096_0 : S1x1024.Idx → EReal)⟩, ⟨S1x1024, (extractStridedSlice S1x1024 ![4096, 0] (m ((c : Thread nD τ).loc main_arg6)) slices_S4097x1024_S1x1024_4096_0 : S1x1024.Idx → EReal)⟩] concatenates_S1x1024_S1x1024_S1x1024_S3x1024_d0 (ix2 (2 : Fin 3) k) 2 (by show 2 < 3; omega) S1x1024 _ rfl rfl 2 rfl (ix2 (0 : Fin 1) k) (hi _) rfl).trans ?_
    exact slice2_axis0_apply 4096 _ slices_S4097x1024_S1x1024_4096_0 (0 : Fin 1) k _ rfl

/-- Entry (r, 0) of the bias column is bias(r). -/
theorem column_entry (c : Dev nD) (r : Fin 4097) :
    (V m c main_v9 : S4097x1.Idx → EReal) (ix2 r (0 : Fin 1)) = m ((c : Thread nD τ).loc main_arg9) (ix1 r) := by
  refine (congrFun (column_eq m c) _).trans ?_
  exact Cert.LibKeepdims.shapeCast_a_a1_apply (a := 4097) _ _ r (0 : Fin 1)

/-! ## The windows' blocks at a grid point -/

theorem point_lt (t : Fin cfg0.N) : t.val < 32 := by have h := t.isLt; have e : cfg0.N = 32 := N_0; omega

/-- The printed index maps, decided over the 32 points: the three prepared operands stay at block (0, 0); every
    other window is at block (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val
    ∧ win0_9.index t (0 : Fin 2) = 0 ∧ win0_9.index t (1 : Fin 2) = t.val
    ∧ win0_10.index t (0 : Fin 2) = 0 ∧ win0_10.index t (1 : Fin 2) = t.val
    ∧ win0_11.index t (0 : Fin 2) = 0 ∧ win0_11.index t (1 : Fin 2) = t.val :=
  (by decide +kernel : ∀ t : Fin grid0.N, _)

/-- The joined weights' block is the whole array. -/
theorem blk0 (c : Dev nD) (t : Fin cfg0.N) (r : Fin 4096) (k : Fin 3072) :
    iblk m c 0 t (ix2 r k) = (V m c main_v4 : S4096x3072.Idx → EReal) (ix2 r k) := by
  obtain ⟨e0, e1, -⟩ := idx_facts t
  show (V m c main_v4 : S4096x3072.Idx → EReal) (((cfg0.win 0).blk t).view.emb (ix2 r k)) = _
  refine congrArg _ (funext fun a => Fin.ext ?_)
  match a with
  | ⟨0, _⟩ => show win0_0.index t (0 : Fin 2) * 4096 + 1 * r.val = r.val; omega
  | ⟨1, _⟩ => show win0_0.index t (1 : Fin 2) * 3072 + 1 * k.val = k.val; omega
/-- The bias column's block is the whole column. -/
theorem blk1 (c : Dev nD) (t : Fin cfg0.N) (r : Fin 4097) :
    iblk m c 1 t (ix2 r (0 : Fin 1)) = (V m c main_v9 : S4097x1.Idx → EReal) (ix2 r (0 : Fin 1)) := by
  obtain ⟨-, -, e0, e1, -⟩ := idx_facts t
  show (V m c main_v9 : S4097x1.Idx → EReal) (((cfg0.win 1).blk t).view.emb (ix2 r (0 : Fin 1))) = _
  refine congrArg _ (funext fun a => Fin.ext ?_)
  match a with
  | ⟨0, _⟩ => show win0_1.index t (0 : Fin 2) * 4097 + 1 * r.val = r.val; omega
  | ⟨1, _⟩ => show win0_1.index t (1 : Fin 2) * 1 + 1 * 0 = 0; omega
/-- The stacked rows' block is the whole matrix. -/
theorem blk2 (c : Dev nD) (t : Fin cfg0.N) (j : Fin 3) (k : Fin 1024) :
    iblk m c 2 t (ix2 j k) = (V m c main_v8 : S3x1024.Idx → EReal) (ix2 j k) := by
  obtain ⟨-, -, -, -, e0, e1, -⟩ := idx_facts t
  show (V m c main_v8 : S3x1024.Idx → EReal) (((cfg0.win 2).blk t).view.emb (ix2 j k)) = _
  refine congrArg _ (funext fun a => Fin.ext ?_)
  match a with
  | ⟨0, _⟩ => show win0_2.index t (0 : Fin 2) * 3 + 1 * j.val = j.val; omega
  | ⟨1, _⟩ => show win0_2.index t (1 : Fin 2) * 1024 + 1 * k.val = k.val; omega
/-- The bottom-up input's block at point t: columns 128·t … 128·t + 127. -/
theorem blk3 (c : Dev nD) (t : Fin cfg0.N) (p : Fin 1024) (q : Fin 128) :
    iblk m c 3 t (ix2 p q) = m ((c : Thread nD τ).loc main_arg1) (ix2 p (⟨128 * t.val + q.val, by have := point_lt t; omega⟩ : Fin 4096)) := by
  have e := idx_facts t
  have e0 : win0_3.index t (0 : Fin 2) = 0 := by omega
  have e1 : win0_3.index t (1 : Fin 2) = t.val := by omega
  show V m c main_arg1 (((cfg0.win 3).blk t).view.emb (ix2 p q)) = _
  rw [V_main_arg1]
  refine congrArg _ (funext fun a => Fin.ext ?_)
  match a with
  | ⟨0, _⟩ => show win0_3.index t (0 : Fin 2) * 1024 + 1 * p.val = p.val; omega
  | ⟨1, _⟩ => show win0_3.index t (1 : Fin 2) * 128 + 1 * q.val = 128 * t.val + q.val; omega
/-- The top-down input's block at point t: columns 128·t … 128·t + 127. -/
theorem blk4 (c : Dev nD) (t : Fin cfg0.N) (p : Fin 1024) (q : Fin 128) :
    iblk m c 4 t (ix2 p q) = m ((c : Thread nD τ).loc main_arg3) (ix2 p (⟨128 * t.val + q.val, by have := point_lt t; omega⟩ : Fin 4096)) := by
  have e := idx_facts t
  have e0 : win0_4.index t (0 : Fin 2) = 0 := by omega
  have e1 : win0_4.index t (1 : Fin 2) = t.val := by omega
  show V m c main_arg3 (((cfg0.win 4).blk t).view.emb (ix2 p q)) = _
  rw [V_main_arg3]
  refine congrArg _ (funext fun a => Fin.ext ?_)
  match a with
  | ⟨0, _⟩ => show win0_4.index t (0 : Fin 2) * 1024 + 1 * p.val = p.val; omega
  | ⟨1, _⟩ => show win0_4.index t (1 : Fin 2) * 128 + 1 * q.val = 128 * t.val + q.val; omega
/-- The old hidden state's block at point t: columns 128·t … 128·t + 127. -/
theorem blk5 (c : Dev nD) (t : Fin cfg0.N) (p : Fin 1024) (q : Fin 128) :
    iblk m c 5 t (ix2 p q) = m ((c : Thread nD τ).loc main_arg2) (ix2 p (⟨128 * t.val + q.val, by have := point_lt t; omega⟩ : Fin 4096)) := by
  have e := idx_facts t
  have e0 : win0_5.index t (0 : Fin 2) = 0 := by omega
  have e1 : win0_5.index t (1 : Fin 2) = t.val := by omega
  show V m c main_arg2 (((cfg0.win 5).blk t).view.emb (ix2 p q)) = _
  rw [V_main_arg2]
  refine congrArg _ (funext fun a => Fin.ext ?_)
  match a with
  | ⟨0, _⟩ => show win0_5.index t (0 : Fin 2) * 1024 + 1 * p.val = p.val; omega
  | ⟨1, _⟩ => show win0_5.index t (1 : Fin 2) * 128 + 1 * q.val = 128 * t.val + q.val; omega
/-- The old cell state's block at point t: columns 128·t … 128·t + 127. -/
theorem blk6 (c : Dev nD) (t : Fin cfg0.N) (p : Fin 1024) (q : Fin 128) :
    iblk m c 6 t (ix2 p q) = m ((c : Thread nD τ).loc main_arg0) (ix2 p (⟨128 * t.val + q.val, by have := point_lt t; omega⟩ : Fin 4096)) := by
  have e := idx_facts t
  have e0 : win0_6.index t (0 : Fin 2) = 0 := by omega
  have e1 : win0_6.index t (1 : Fin 2) = t.val := by omega
  show V m c main_arg0 (((cfg0.win 6).blk t).view.emb (ix2 p q)) = _
  rw [V_main_arg0]
  refine congrArg _ (funext fun a => Fin.ext ?_)
  match a with
  | ⟨0, _⟩ => show win0_6.index t (0 : Fin 2) * 1024 + 1 * p.val = p.val; omega
  | ⟨1, _⟩ => show win0_6.index t (1 : Fin 2) * 128 + 1 * q.val = 128 * t.val + q.val; omega
/-- This layer's indicator's block at point t: columns 128·t … 128·t + 127. -/
theorem blk7 (c : Dev nD) (t : Fin cfg0.N) (q : Fin 128) :
    iblk m c 7 t (ix2 (0 : Fin 1) q) = m ((c : Thread nD τ).loc main_arg4) (ix2 (0 : Fin 1) (⟨128 * t.val + q.val, by have := point_lt t; omega⟩ : Fin 4096)) := by
  have e := idx_facts t
  have e0 : win0_7.index t (0 : Fin 2) = 0 := by omega
  have e1 : win0_7.index t (1 : Fin 2) = t.val := by omega
  show V m c main_arg4 (((cfg0.win 7).blk t).view.emb (ix2 (0 : Fin 1) q)) = _
  rw [V_main_arg4]
  refine congrArg _ (funext fun a => Fin.ext ?_)
  match a with
  | ⟨0, _⟩ => show win0_7.index t (0 : Fin 2) * 1 + 1 * 0 = 0; omega
  | ⟨1, _⟩ => show win0_7.index t (1 : Fin 2) * 128 + 1 * q.val = 128 * t.val + q.val; omega
/-- The lower layer's indicator's block at point t: columns 128·t … 128·t + 127. -/
theorem blk8 (c : Dev nD) (t : Fin cfg0.N) (q : Fin 128) :
    iblk m c 8 t (ix2 (0 : Fin 1) q) = m ((c : Thread nD τ).loc main_arg5) (ix2 (0 : Fin 1) (⟨128 * t.val + q.val, by have := point_lt t; omega⟩ : Fin 4096)) := by
  have e := idx_facts t
  have e0 : win0_8.index t (0 : Fin 2) = 0 := by omega
  have e1 : win0_8.index t (1 : Fin 2) = t.val := by omega
  show V m c main_arg5 (((cfg0.win 8).blk t).view.emb (ix2 (0 : Fin 1) q)) = _
  rw [V_main_arg5]
  refine congrArg _ (funext fun a => Fin.ext ?_)
  match a with
  | ⟨0, _⟩ => show win0_8.index t (0 : Fin 2) * 1 + 1 * 0 = 0; omega
  | ⟨1, _⟩ => show win0_8.index t (1 : Fin 2) * 128 + 1 * q.val = 128 * t.val + q.val; omega

end Cert.KernelIdeal.Prepared

end
-- ==== Proof.Cell.lean ====
/-
  The cell update of a hierarchical multiscale LSTM, one entry at a time, over the extended reals.

  For a column `b` of the batch, with boundary indicators `z` (of this layer at the previous step) and `zb` (of the layer below), row `r` of the pre-activation is
      (Σ_k W(r,k)·x(k,b)  +  z · Σ_k U'(r,k)·t(k,b))  +  zb · Σ_k U(r,k)·h(k,b)  +  bias(r),
  the three sums being the bottom-up, top-down and recurrent contributions.  Rows 0…1023, 1024…2047 and 2048…3071
  go through the logistic function (forget, input and output gates), rows 3072…4095 through tanh (the candidate),
  and row 4096 through a hard sigmoid and a threshold (the new boundary indicator).  The new cell state mixes
  three behaviours by the two indicators — flush (`z = 1`), copy (`z = 0, zb = 0`), update (`z = 0, zb = 1`) —
  and the new hidden state does the same with the output gate applied to tanh of the new cell state.
  The words 1.0, 0.5, 2.0 and 0.0 are kept as the float words the programs spell.
-/
import Idealize.ShloMosaic.PureOps.Ideal

noncomputable section

namespace Cert.Cell

open Idealize.ShloMosaic

/-- The float words the two programs spell: 1.0, 0.5, 2.0, 0.0. -/
abbrev w1 : EReal := Ideal.ofBits .f32 0x3F800000#32
abbrev wHalf : EReal := Ideal.ofBits .f32 0x3F000000#32
abbrev w2 : EReal := Ideal.ofBits .f32 0x40000000#32
abbrev w0 : EReal := Ideal.ofBits .f32 0x00000000#32

/-- A pre-activation entry from its three contraction sums, the two indicators and the bias entry. -/
def pre (sW sU sV z zb b : EReal) : EReal := ((sW + z * sU) + zb * sV) + b

/-- The logistic function spelt as negate, exponential, add one, divide one by. -/
def sigm (x : EReal) : EReal := Ideal.div w1 (w1 + Ideal.exp (-x))

/-- The new cell state from the forget, input and candidate gates, the indicators and the old cell state. -/
def cellC (f i g z zb c : EReal) : EReal :=
  (z * (i * g) + ((w1 - z) * (w1 - zb)) * c) + ((w1 - z) * zb) * (f * c + i * g)

/-- The new hidden state from the output gate, tanh of the new cell state, the indicators and the old hidden state. -/
def cellH (o tc z zb h : EReal) : EReal :=
  ((z * o) * tc + ((w1 - z) * (w1 - zb)) * h) + (((w1 - z) * zb) * o) * tc

/-- The hard sigmoid of the boundary row's pre-activation, with the halving spelt as a product by 0.5 … -/
def hardMul (x : EReal) : EReal := min w1 (max w0 ((x * w1 + w1) * wHalf))
/-- … and as a quotient by 2. -/
def hardDiv (x : EReal) : EReal := min w1 (max w0 (Ideal.div (x * w1 + w1) w2))

end Cert.Cell

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.KernelEntries.lean ====
/-
  The kernel's computed values, read one entry at a time, over the extended reals.

  The kernel forms a [4096, 3072] × [3072, 128] matrix product into zero whose right operand is three [1024, 128]
  blocks joined along the first axis — the first block as it is, the second and third each scaled columnwise by an
  indicator row —, adds a bias column, cuts the result into four bands of 1024 rows and sends three of them through
  the logistic function and the fourth through tanh.  A boundary row is computed apart, from three sums along the
  first axis.  Then come the cell and hidden updates.  Each theorem below reads one of these values at an entry:
    • pre_main: an entry of the biased product is the three stretches' contraction sums plus the bias entry
      (a finite sum over 3072 positions splits into its three stretches of 1024 by commutativity and associativity alone);
    • gate_f, gate_i, gate_o, gate_g: a gate entry is the logistic function (tanh for the last) of the product's entry in its band;
    • cnew_entry, hnew_entry: the new cell and hidden entries are the shared per-entry formulas;
    • znew_entry: the boundary row's entry is the thresholded hard sigmoid of its pre-activation, the three sums
      along the first axis being plain finite sums (the zero word they start from is the neutral element and leaves no trace).
-/
import proofs.«149303_j13778255086021_2_alg».proof.Proof.Gen.KernelIdeal.Skeleton
import proofs.«149303_j13778255086021_2_alg».proof.Proof.Cell
import proofs.«149303_j13778255086021_2_alg».proof.Proof.LibPlainDot
import proofs.«149303_j13778255086021_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Entries

open Cert.KernelIdeal Cert.KernelIdeal.Gen Idealize.ShloMosaic Idealize.ShloMosaic.ValueIdx Cert.Cell

variable (v0 : Vec Ideal S4096x3072 .bf16) (v2 : Vec Ideal S4097x1 .f32) (v4 : Vec Ideal S3x1024 .f32)
  (v6 v7 v8 v9 : Vec Ideal S1024x128 .f32) (v10 v11 : Vec Ideal S1x128 .f32)

theorem cnew_entry (f i g : FVec Ideal S1024x128 .f32) (p : Fin 1024) (q : Fin 128) :
    k0_pay1 (k0_pay16 v9 v10 v11 i g) (k0_pay17 v9 f i g) (k0_pay18 v10 v11) (ix2 p q)
      = cellC (f (ix2 p q)) (i (ix2 p q)) (g (ix2 p q)) (v10 (ix2 0 q)) (v11 (ix2 0 q)) (v9 (ix2 p q)) := by
  unfold k0_pay1 k0_pay16 k0_pay17 k0_pay18 k0_pay15 cellC
  simp only [addf_apply, mulf_apply, subf_apply, broadcast_apply, broadcastTo_1b_ab_apply]
  rfl

theorem hnew_entry (o v81 v86 v87 : FVec Ideal S1024x128 .f32) (p : Fin 1024) (q : Fin 128) :
    k0_pay2 v8 v10 v11 o v81 v86 v87 (ix2 p q)
      = cellH (o (ix2 p q)) (Ideal.tanh (k0_pay1 v81 v86 v87 (ix2 p q))) (v10 (ix2 0 q)) (v11 (ix2 0 q)) (v8 (ix2 p q)) := by
  unfold k0_pay2 cellH
  simp only [addf_apply, mulf_apply, subf_apply, broadcast_apply, broadcastTo_1b_ab_apply]
  rfl

theorem gate_f (p : Fin 1024) (q : Fin 128) :
    k0_pay6 v0 v2 v6 v7 v8 v10 v11 (ix2 p q)
      = Ideal.logistic (k0_pay5 v0 v2 v6 v7 v8 v10 v11 (ix2 ⟨p.val, by have := p.isLt; omega⟩ q)) := by
  unfold k0_pay6
  exact congrArg Ideal.logistic
    (slice2_axis0_apply 0 (k0_pay5 v0 v2 v6 v7 v8 v10 v11) _ p q ⟨p.val, by have := p.isLt; omega⟩ (Nat.zero_add _).symm)

theorem gate_i (p : Fin 1024) (q : Fin 128) :
    k0_pay7 v0 v2 v6 v7 v8 v10 v11 (ix2 p q)
      = Ideal.logistic (k0_pay5 v0 v2 v6 v7 v8 v10 v11 (ix2 ⟨1024 + p.val, by have := p.isLt; omega⟩ q)) := by
  unfold k0_pay7
  exact congrArg Ideal.logistic
    (slice2_axis0_apply 1024 (k0_pay5 v0 v2 v6 v7 v8 v10 v11) _ p q ⟨1024 + p.val, by have := p.isLt; omega⟩ rfl)

theorem gate_o (p : Fin 1024) (q : Fin 128) :
    k0_pay8 v0 v2 v6 v7 v8 v10 v11 (ix2 p q)
      = Ideal.logistic (k0_pay5 v0 v2 v6 v7 v8 v10 v11 (ix2 ⟨2048 + p.val, by have := p.isLt; omega⟩ q)) := by
  unfold k0_pay8
  exact congrArg Ideal.logistic
    (slice2_axis0_apply 2048 (k0_pay5 v0 v2 v6 v7 v8 v10 v11) _ p q ⟨2048 + p.val, by have := p.isLt; omega⟩ rfl)

theorem gate_g (p : Fin 1024) (q : Fin 128) :
    k0_pay9 v0 v2 v6 v7 v8 v10 v11 (ix2 p q)
      = Ideal.tanh (k0_pay5 v0 v2 v6 v7 v8 v10 v11 (ix2 ⟨3072 + p.val, by have := p.isLt; omega⟩ q)) := by
  unfold k0_pay9
  exact congrArg Ideal.tanh
    (slice2_axis0_apply 3072 (k0_pay5 v0 v2 v6 v7 v8 v10 v11) _ p q ⟨3072 + p.val, by have := p.isLt; omega⟩ rfl)

/-- A sum over three stretches of equal length laid end to end is the sum of the three stretches' sums. -/
theorem sum_three {M : Type} [AddCommMonoid M] (n : Nat) (F : Fin (n + n + n) → M) :
    ∑ k : Fin (n + n + n), F k
      = (∑ k : Fin n, F ⟨k.val, by have := k.isLt; omega⟩) + (∑ k : Fin n, F ⟨n + k.val, by have := k.isLt; omega⟩)
        + (∑ k : Fin n, F ⟨n + n + k.val, by have := k.isLt; omega⟩) := by
  rw [Fin.sum_univ_add, Fin.sum_univ_add]
  rfl

theorem sum_3072 (F : Fin 3072 → EReal) :
    ∑ k : Fin 3072, F k
      = (∑ k : Fin 1024, F ⟨k.val, by have := k.isLt; omega⟩) + (∑ k : Fin 1024, F ⟨1024 + k.val, by have := k.isLt; omega⟩)
        + (∑ k : Fin 1024, F ⟨2048 + k.val, by have := k.isLt; omega⟩) :=
  sum_three 1024 F

section Concat
variable {α : Type}

/-- Three [1024,128] blocks joined along axis 0: rows 0…1023 are the first block's. -/
theorem concat3_at0 (x0 x1 x2 : (⟨2, ![1024, 128]⟩ : Shape).Idx → α)
    (h : Shape.Concatenates [(⟨2, ![1024, 128]⟩ : Shape), ⟨2, ![1024, 128]⟩, ⟨2, ![1024, 128]⟩] ⟨2, ![3072, 128]⟩ 0)
    (k : Fin 1024) (q : Fin 128) :
    concatenate ⟨2, ![3072, 128]⟩ 0 [⟨⟨2, ![1024, 128]⟩, x0⟩, ⟨⟨2, ![1024, 128]⟩, x1⟩, ⟨⟨2, ![1024, 128]⟩, x2⟩] h
        (ix2 ⟨k.val, by have := k.isLt; omega⟩ q) = x0 (ix2 k q) :=
  concatenate_apply_piece (t := ⟨2, ![3072, 128]⟩) 0
    [⟨⟨2, ![1024, 128]⟩, x0⟩, ⟨⟨2, ![1024, 128]⟩, x1⟩, ⟨⟨2, ![1024, 128]⟩, x2⟩] h _ 0 (by show 0 < 3; omega) ⟨2, ![1024, 128]⟩ x0 rfl rfl 0 rfl (ix2 k q)
    (fun b hb => by match b with | ⟨0, _⟩ => exact absurd rfl hb | ⟨1, _⟩ => rfl) (Nat.zero_add _)

/-- … rows 1024…2047 the second's … -/
theorem concat3_at1 (x0 x1 x2 : (⟨2, ![1024, 128]⟩ : Shape).Idx → α)
    (h : Shape.Concatenates [(⟨2, ![1024, 128]⟩ : Shape), ⟨2, ![1024, 128]⟩, ⟨2, ![1024, 128]⟩] ⟨2, ![3072, 128]⟩ 0)
    (k : Fin 1024) (q : Fin 128) :
    concatenate ⟨2, ![3072, 128]⟩ 0 [⟨⟨2, ![1024, 128]⟩, x0⟩, ⟨⟨2, ![1024, 128]⟩, x1⟩, ⟨⟨2, ![1024, 128]⟩, x2⟩] h
        (ix2 ⟨1024 + k.val, by have := k.isLt; omega⟩ q) = x1 (ix2 k q) :=
  concatenate_apply_piece (t := ⟨2, ![3072, 128]⟩) 0
    [⟨⟨2, ![1024, 128]⟩, x0⟩, ⟨⟨2, ![1024, 128]⟩, x1⟩, ⟨⟨2, ![1024, 128]⟩, x2⟩] h _ 1 (by show 1 < 3; omega) ⟨2, ![1024, 128]⟩ x1 rfl rfl 1024 rfl (ix2 k q)
    (fun b hb => by match b with | ⟨0, _⟩ => exact absurd rfl hb | ⟨1, _⟩ => rfl) rfl

/-- … and rows 2048…3071 the third's. -/
theorem concat3_at2 (x0 x1 x2 : (⟨2, ![1024, 128]⟩ : Shape).Idx → α)
    (h : Shape.Concatenates [(⟨2, ![1024, 128]⟩ : Shape), ⟨2, ![1024, 128]⟩, ⟨2, ![1024, 128]⟩] ⟨2, ![3072, 128]⟩ 0)
    (k : Fin 1024) (q : Fin 128) :
    concatenate ⟨2, ![3072, 128]⟩ 0 [⟨⟨2, ![1024, 128]⟩, x0⟩, ⟨⟨2, ![1024, 128]⟩, x1⟩, ⟨⟨2, ![1024, 128]⟩, x2⟩] h
        (ix2 ⟨2048 + k.val, by have := k.isLt; omega⟩ q) = x2 (ix2 k q) :=
  concatenate_apply_piece (t := ⟨2, ![3072, 128]⟩) 0
    [⟨⟨2, ![1024, 128]⟩, x0⟩, ⟨⟨2, ![1024, 128]⟩, x1⟩, ⟨⟨2, ![1024, 128]⟩, x2⟩] h _ 2 (by show 2 < 3; omega) ⟨2, ![1024, 128]⟩ x2 rfl rfl 2048 rfl (ix2 k q)
    (fun b hb => by match b with | ⟨0, _⟩ => exact absurd rfl hb | ⟨1, _⟩ => rfl) rfl

end Concat

/-- The kernel's contraction is a plain matrix product: second axis of the left operand against the first of the right. -/
theorem plain_dot : Cert.LibPlainDot.Plain dot_S4096x3072_S3072x128_S4096x128_1_0_0_1_n_n := ⟨rfl, rfl, rfl, rfl, rfl, rfl⟩

theorem pre_main (r : Fin 4096) (q : Fin 128) :
    k0_pay5 v0 v2 v6 v7 v8 v10 v11 (ix2 r q)
      = ((∑ k : Fin 1024, v0 (ix2 r ⟨k.val, by have := k.isLt; omega⟩) * v6 (ix2 k q))
          + (∑ k : Fin 1024, v0 (ix2 r ⟨1024 + k.val, by have := k.isLt; omega⟩) * (v7 (ix2 k q) * v10 (ix2 0 q)))
          + (∑ k : Fin 1024, v0 (ix2 r ⟨2048 + k.val, by have := k.isLt; omega⟩) * (v8 (ix2 k q) * v11 (ix2 0 q))))
        + v2 (ix2 ⟨r.val, by have := r.isLt; omega⟩ 0) := by
  unfold k0_pay5
  simp only [addf_apply]
  refine congrArg₂ (· + ·) ?_ ?_
  · refine (Ideal.matmul_constant_zero_apply _ none _ _ _).trans ?_
    refine (plain_dot.sum_eq _ _ r q).trans ?_
    refine (sum_3072 _).trans ?_
    refine congrArg₂ (· + ·) (congrArg₂ (· + ·) ?_ ?_) ?_
    · refine Finset.sum_congr rfl fun k _ => ?_
      refine congrArg₂ (· * ·) (congrFun (shapeCast_self v0 _) _) ?_
      exact concat3_at0 _ _ _ _ k q
    · refine Finset.sum_congr rfl fun k _ => ?_
      refine congrArg₂ (· * ·) (congrFun (shapeCast_self v0 _) _) ?_
      refine (concat3_at1 _ _ _ _ k q).trans ?_
      exact congrArg (v7 (ix2 k q) * ·) (broadcastTo_1b_ab_apply v10 _ k q)
    · refine Finset.sum_congr rfl fun k _ => ?_
      refine congrArg₂ (· * ·) (congrFun (shapeCast_self v0 _) _) ?_
      refine (concat3_at2 _ _ _ _ k q).trans ?_
      exact congrArg (v8 (ix2 k q) * ·) (broadcastTo_1b_ab_apply v11 _ k q)
  · refine (Cert.LibKeepdims.broadcastTo_a1_ab_apply _ _ r q).trans ?_
    refine (slice2_axis0_apply 0 (k0_pay3 v2) _ r (0 : Fin 1) ⟨r.val, by have := r.isLt; omega⟩ (Nat.zero_add _).symm).trans ?_
    unfold k0_pay3
    exact congrFun (shapeCast_self v2 _) _

/-- Over the extended reals, the sum of a [a, b] array along its first axis, started from the zero word, is at
    column j the sum over the rows k of the entries (k, j). -/
theorem multiReduction_add_cols_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext ax
  apply Fin.ext
  match ax with
  | ⟨0, _⟩ => rfl
  | ⟨1, _⟩ => rfl

/-- Row j of a [3,1024] block, cut out as a [1,1024] row and turned into a [1024,1] column, reads the block at (j, k). -/
theorem row_column_apply (j : Fin 3) (hs : S3x1024.Slices ![j.val, 0] S1x1024) (ht : S1x1024.Transposes [1, 0] S1024x1)
    (k : Fin 1024) :
    transpose S1024x1 [1, 0] (extractStridedSlice S1x1024 ![j.val, 0] (k0_pay4 v4) hs) ht (ix2 k (0 : Fin 1)) = v4 (ix2 j k) := by
  refine (transpose_ix2_apply _ ht k (0 : Fin 1)).trans ?_
  refine (slice2_axis0_apply j.val (k0_pay4 v4) hs (0 : Fin 1) k j rfl).trans ?_
  unfold k0_pay4
  exact congrFun (shapeCast_self v4 _) _

theorem pay13_apply (k : Fin 1024) (q : Fin 128) : k0_pay13 v4 (ix2 k q) = v4 (ix2 0 k) := by
  unfold k0_pay13
  refine (Cert.LibKeepdims.broadcastTo_a1_ab_apply _ _ k q).trans ?_
  exact row_column_apply v4 0 _ _ k

theorem pay10_apply (k : Fin 1024) : k0_pay10 v4 (ix2 k (0 : Fin 1)) = v4 (ix2 1 k) := by
  unfold k0_pay10
  exact row_column_apply v4 1 _ _ k

theorem pay11_apply (k : Fin 1024) : k0_pay11 v4 (ix2 k (0 : Fin 1)) = v4 (ix2 2 k) := by
  unfold k0_pay11
  exact row_column_apply v4 2 _ _ k

theorem pay12_apply : k0_pay12 v2 (ix2 (0 : Fin 1) (0 : Fin 1)) = v2 (ix2 ⟨4096, by omega⟩ 0) := by
  unfold k0_pay12
  refine (slice2_axis0_apply 4096 (k0_pay3 v2) _ (0 : Fin 1) (0 : Fin 1) ⟨4096, by omega⟩ rfl).trans ?_
  unfold k0_pay3
  exact congrFun (shapeCast_self v2 _) _

/-- A column sum of the product of a spread column with a block, cast from [128] to [1,128], read at (0, q). -/
theorem colsum_apply (c : FVec Ideal S1024x128 .f32) (w : Vec Ideal S1024x128 .f32) (hr : S1024x128.Reduces [0] S128)
    (hφ : FKind.Formats .f32) (hacc : (0x00000000#32 : BitVec 32) = FKind.add.neutral .f32 hφ)
    (hc : S128.ShapeCasts S1x128) (q : Fin 128) :
    shapeCast S1x128 (multiReduction .add [0] S128 (mulf c w) 0x00000000#32 hr hφ hacc) hc (ix2 (0 : Fin 1) q)
      = ∑ k : Fin 1024, c (ix2 k q) * w (ix2 k q) := by
  refine (shapeCast_a_1a_apply _ hc (0 : Fin 1) q).trans ?_
  exact multiReduction_add_cols_apply (mulf c w) hr hφ hacc q

theorem znew_entry (q : Fin 128) :
    k0_pay14 v6 v7 v8 v10 v11 (k0_pay10 v4) (k0_pay11 v4) (k0_pay12 v2) (k0_pay13 v4) (ix2 0 q)
      = FloatOps.sitofp (F := Ideal) .f32 ((FloatOps.cmpf (F := Ideal) (φ := .f32) .ogt (hardMul
          ((((∑ k : Fin 1024, v4 (ix2 0 k) * v6 (ix2 k q))
              + v10 (ix2 0 q) * (∑ k : Fin 1024, v4 (ix2 1 k) * v7 (ix2 k q)))
            + v11 (ix2 0 q) * (∑ k : Fin 1024, v4 (ix2 2 k) * v8 (ix2 k q)))
            + v2 (ix2 ⟨4096, by omega⟩ 0))) wHalf).setWidth 32) := by
  unfold k0_pay14
  simp only [sitofp_apply, extui_apply, cmpf_apply, minimumf_apply, maximumf_apply, mulf_apply, addf_apply, broadcast_apply]
  refine congrArg (fun x => FloatOps.sitofp (F := Ideal) .f32 ((FloatOps.cmpf (F := Ideal) (φ := .f32) .ogt (hardMul x) wHalf).setWidth 32)) ?_
  refine congrArg₂ (· + ·) (congrArg₂ (· + ·) (congrArg₂ (· + ·) ?_ (congrArg (v10 (ix2 0 q) * ·) ?_))
    (congrArg (v11 (ix2 0 q) * ·) ?_)) ?_
  · refine (colsum_apply _ v6 _ _ _ _ q).trans ?_
    exact Finset.sum_congr rfl fun k _ => congrArg (· * v6 (ix2 k q)) (pay13_apply v4 k q)
  · refine (colsum_apply _ v7 _ _ _ _ q).trans ?_
    refine Finset.sum_congr rfl fun k _ => congrArg (· * v7 (ix2 k q)) ?_
    exact (Cert.LibKeepdims.broadcastTo_a1_ab_apply _ _ k q).trans (pay10_apply v4 k)
  · refine (colsum_apply _ v8 _ _ _ _ q).trans ?_
    refine Finset.sum_congr rfl fun k _ => congrArg (· * v8 (ix2 k q)) ?_
    exact (Cert.LibKeepdims.broadcastTo_a1_ab_apply _ _ k q).trans (pay11_apply v4 k)
  · exact (Cert.LibKeepdims.broadcastTo_a1_ab_apply _ _ (0 : Fin 1) q).trans (pay12_apply v2)

end Cert.KernelIdeal.Entries

end
-- ==== Proof.ReferenceEntries.lean ====
/-
  The reference program's three results, and its pre-activation, read at one entry.

  The reference computes the pre-activation array of 4097 rows once (three matrix products, two of them scaled by the
  boundary indicators of the column, plus the bias of the row), slices it into the four gate blocks of 1024 rows and
  the boundary row, and combines them entry by entry. Read at row `p` and column `j`, each result depends only on
  the pre-activation entries of rows `p`, `1024 + p`, `2048 + p`, `3072 + p` (and row 4096 for the boundary) of the
  same column, the two indicators of the column and the old states at the same entry: exactly the per-entry cell
  update, with the products grouped as the program groups them.
-/
import proofs.«149303_j13778255086021_2_alg».proof.Proof.Gen.ReferenceIdeal.Read
import proofs.«149303_j13778255086021_2_alg».proof.Proof.Cell
import Idealize.ShloMosaic.Lib.ValueIdx
import Idealize.ShloMosaic.PureOps.Ideal

noncomputable section

namespace Cert.ReferenceIdeal.Entries

open Cert.ReferenceIdeal Cert.ReferenceIdeal.Read Idealize.ShloMosaic Idealize.ShloMosaic.ValueIdx Cert.Cell

variable (A0 A1 A2 A3 : (⟨S1024x4096, .f32⟩ : BufTy).Contents (Elt Ideal))
  (A4 A5 : (⟨S1x4096, .f32⟩ : BufTy).Contents (Elt Ideal))
  (A6 A7 A8 : (⟨S4097x1024, .f32⟩ : BufTy).Contents (Elt Ideal))
  (A9 : (⟨S4097, .f32⟩ : BufTy).Contents (Elt Ideal))

/-! ## The index functions of the layout operations, at coordinates -/

/-- The left operand of the matrix product %0 is read at (row of the result, summation index). -/
theorem lidx_v0_eq (r : Fin 4097) (j : Fin 4096) (k : Fin 1024) : lidx_main_v0 (ix2 r j) k = ix2 r k :=
  funext fun a => Fin.ext (by match a with | ⟨0, _⟩ => rfl | ⟨1, _⟩ => rfl)
/-- The right operand of the matrix product %0 is read at (summation index, column of the result). -/
theorem ridx_v0_eq (r : Fin 4097) (j : Fin 4096) (k : Fin 1024) : ridx_main_v0 (ix2 r j) k = ix2 k j :=
  funext fun a => Fin.ext (by match a with | ⟨0, _⟩ => rfl | ⟨1, _⟩ => rfl)
/-- The left operand of the matrix product %1 is read at (row of the result, summation index). -/
theorem lidx_v1_eq (r : Fin 4097) (j : Fin 4096) (k : Fin 1024) : lidx_main_v1 (ix2 r j) k = ix2 r k :=
  funext fun a => Fin.ext (by match a with | ⟨0, _⟩ => rfl | ⟨1, _⟩ => rfl)
/-- The right operand of the matrix product %1 is read at (summation index, column of the result). -/
theorem ridx_v1_eq (r : Fin 4097) (j : Fin 4096) (k : Fin 1024) : ridx_main_v1 (ix2 r j) k = ix2 k j :=
  funext fun a => Fin.ext (by match a with | ⟨0, _⟩ => rfl | ⟨1, _⟩ => rfl)
/-- The left operand of the matrix product %5 is read at (row of the result, summation index). -/
theorem lidx_v5_eq (r : Fin 4097) (j : Fin 4096) (k : Fin 1024) : lidx_main_v5 (ix2 r j) k = ix2 r k :=
  funext fun a => Fin.ext (by match a with | ⟨0, _⟩ => rfl | ⟨1, _⟩ => rfl)
/-- The right operand of the matrix product %5 is read at (summation index, column of the result). -/
theorem ridx_v5_eq (r : Fin 4097) (j : Fin 4096) (k : Fin 1024) : ridx_main_v5 (ix2 r j) k = ix2 k j :=
  funext fun a => Fin.ext (by match a with | ⟨0, _⟩ => rfl | ⟨1, _⟩ => rfl)
/-- The indicator row broadcast down the 4097 rows (%2) is read at its column. -/
theorem idx_v2_eq (r : Fin 4097) (j : Fin 4096) : idx_main_v2 (ix2 r j) = ix2 (0 : Fin 1) j :=
  funext fun a => Fin.ext (by match a with | ⟨0, _⟩ => rfl | ⟨1, _⟩ => rfl)
/-- The indicator row broadcast down the 4097 rows (%6) is read at its column. -/
theorem idx_v6_eq (r : Fin 4097) (j : Fin 4096) : idx_main_v6 (ix2 r j) = ix2 (0 : Fin 1) j :=
  funext fun a => Fin.ext (by match a with | ⟨0, _⟩ => rfl | ⟨1, _⟩ => rfl)
/-- The bias, made a column and broadcast along the columns (%9, %10), is read at its row. -/
theorem idx_bias_eq (r : Fin 4097) (j : Fin 4096) : idx_main_v9 (idx_main_v10 (ix2 r j)) = ix1 r :=
  funext fun a => Fin.ext (by match a with | ⟨0, _⟩ => rfl)

/-! ## The pre-activation at an entry -/

/-- Row `r`, column `j` of the pre-activation: the bottom-up sum, plus the top-down sum scaled by this layer's
    indicator, plus the recurrent sum scaled by the indicator of the layer below, plus the bias of the row. -/
theorem fs_entry (r : Fin 4097) (j : Fin 4096) :
    val_main_v11 (F := Ideal) A1 A2 A3 A4 A5 A6 A7 A8 A9 (ix2 r j) =
      pre (∑ k : Fin 1024, A8 (ix2 r k) * A1 (ix2 k j)) (∑ k : Fin 1024, A7 (ix2 r k) * A3 (ix2 k j))
        (∑ k : Fin 1024, A6 (ix2 r k) * A2 (ix2 k j)) (A4 (ix2 0 j)) (A5 (ix2 0 j)) (A9 (ix1 r)) := by
  rw [val_main_v11_apply, val_main_v8_apply, val_main_v4_apply, val_main_v0_apply, val_main_v3_apply,
    val_main_v2_apply, val_main_v1_apply, val_main_v7_apply, val_main_v6_apply, val_main_v5_apply,
    val_main_v10_apply, val_main_v9_apply]
  simp only [lidx_v0_eq, ridx_v0_eq, lidx_v1_eq, ridx_v1_eq, lidx_v5_eq, ridx_v5_eq, idx_v2_eq, idx_v6_eq,
    idx_bias_eq, Ideal.addf_def, Ideal.mulf_def]
  rfl

/-! ## The gate blocks and the broadcast indicator rows, at coordinates -/

/-- Row `p` of the forget block (%12) is row `p` of the pre-activation. -/
theorem idx_v12_eq (p : Fin 1024) (j : Fin 4096) : idx_main_v12 (ix2 p j) = ix2 (⟨p.val, by have := p.isLt; omega⟩ : Fin 4097) j :=
  funext fun a => Fin.ext (by match a with | ⟨0, _⟩ => rfl | ⟨1, _⟩ => rfl)
/-- Row `p` of the input block (%19) is row `1024 + p` of the pre-activation. -/
theorem idx_v19_eq (p : Fin 1024) (j : Fin 4096) : idx_main_v19 (ix2 p j) = ix2 (⟨1024 + p.val, by have := p.isLt; omega⟩ : Fin 4097) j :=
  funext fun a => Fin.ext (by match a with | ⟨0, _⟩ => rfl | ⟨1, _⟩ => rfl)
/-- Row `p` of the output block (%26) is row `2048 + p` of the pre-activation. -/
theorem idx_v26_eq (p : Fin 1024) (j : Fin 4096) : idx_main_v26 (ix2 p j) = ix2 (⟨2048 + p.val, by have := p.isLt; omega⟩ : Fin 4097) j :=
  funext fun a => Fin.ext (by match a with | ⟨0, _⟩ => rfl | ⟨1, _⟩ => rfl)
/-- Row `p` of the candidate block (%33) is row `3072 + p` of the pre-activation. -/
theorem idx_v33_eq (p : Fin 1024) (j : Fin 4096) : idx_main_v33 (ix2 p j) = ix2 (⟨3072 + p.val, by have := p.isLt; omega⟩ : Fin 4097) j :=
  funext fun a => Fin.ext (by match a with | ⟨0, _⟩ => rfl | ⟨1, _⟩ => rfl)
/-- The boundary row (%35) is row 4096 of the pre-activation. -/
theorem idx_v35_eq (j : Fin 4096) : idx_main_v35 (ix2 (0 : Fin 1) j) = ix2 (⟨4096, by omega⟩ : Fin 4097) j :=
  funext fun a => Fin.ext (by match a with | ⟨0, _⟩ => rfl | ⟨1, _⟩ => rfl)
/-- A row of 4096 entries broadcast down the 1024 rows (%44) is read at its column. -/
theorem idx_v44_eq (p : Fin 1024) (j : Fin 4096) : idx_main_v44 (ix2 p j) = ix2 (0 : Fin 1) j :=
  funext fun a => Fin.ext (by match a with | ⟨0, _⟩ => rfl | ⟨1, _⟩ => rfl)
/-- A row of 4096 entries broadcast down the 1024 rows (%51) is read at its column. -/
theorem idx_v51_eq (p : Fin 1024) (j : Fin 4096) : idx_main_v51 (ix2 p j) = ix2 (0 : Fin 1) j :=
  funext fun a => Fin.ext (by match a with | ⟨0, _⟩ => rfl | ⟨1, _⟩ => rfl)
/-- A row of 4096 entries broadcast down the 1024 rows (%60) is read at its column. -/
theorem idx_v60_eq (p : Fin 1024) (j : Fin 4096) : idx_main_v60 (ix2 p j) = ix2 (0 : Fin 1) j :=
  funext fun a => Fin.ext (by match a with | ⟨0, _⟩ => rfl | ⟨1, _⟩ => rfl)
/-- A row of 4096 entries broadcast down the 1024 rows (%64) is read at its column. -/
theorem idx_v64_eq (p : Fin 1024) (j : Fin 4096) : idx_main_v64 (ix2 p j) = ix2 (0 : Fin 1) j :=
  funext fun a => Fin.ext (by match a with | ⟨0, _⟩ => rfl | ⟨1, _⟩ => rfl)
/-- A row of 4096 entries broadcast down the 1024 rows (%72) is read at its column. -/
theorem idx_v72_eq (p : Fin 1024) (j : Fin 4096) : idx_main_v72 (ix2 p j) = ix2 (0 : Fin 1) j :=
  funext fun a => Fin.ext (by match a with | ⟨0, _⟩ => rfl | ⟨1, _⟩ => rfl)
/-- A row of 4096 entries broadcast down the 1024 rows (%78) is read at its column. -/
theorem idx_v78_eq (p : Fin 1024) (j : Fin 4096) : idx_main_v78 (ix2 p j) = ix2 (0 : Fin 1) j :=
  funext fun a => Fin.ext (by match a with | ⟨0, _⟩ => rfl | ⟨1, _⟩ => rfl)

/-! ## The three results at an entry -/

/-- The new cell state at row `p`, column `j`: the flush, copy and update behaviours mixed by the two indicators of
    the column, from the forget, input and candidate entries of the pre-activation (rows `p`, `1024 + p`,
    `3072 + p`) and the old cell state at the same entry. The reference spells the logistic function as
    negate, exponential, add one, divide one by. -/
theorem cnew_entry (p : Fin 1024) (j : Fin 4096) :
    val_main_v62 (F := Ideal) A0 A1 A2 A3 A4 A5 A6 A7 A8 A9 (ix2 p j) =
      cellC (sigm (val_main_v11 (F := Ideal) A1 A2 A3 A4 A5 A6 A7 A8 A9 (ix2 (⟨p.val, by have := p.isLt; omega⟩ : Fin 4097) j)))
        (sigm (val_main_v11 (F := Ideal) A1 A2 A3 A4 A5 A6 A7 A8 A9 (ix2 (⟨1024 + p.val, by have := p.isLt; omega⟩ : Fin 4097) j)))
        (Ideal.tanh (val_main_v11 (F := Ideal) A1 A2 A3 A4 A5 A6 A7 A8 A9 (ix2 (⟨3072 + p.val, by have := p.isLt; omega⟩ : Fin 4097) j)))
        (A4 (ix2 0 j)) (A5 (ix2 0 j)) (A0 (ix2 p j)) := by
  rw [val_main_v62_apply, val_main_v61_apply, val_main_v60_apply, val_main_v59_apply, val_main_v58_apply,
    val_main_v57_apply, val_main_v56_apply, val_main_v55_apply, val_main_v54_apply, val_main_v53_apply,
    val_main_v52_apply, val_main_v51_apply, val_main_v50_apply, val_main_v49_apply, val_main_v48_apply,
    val_main_v47_apply, val_main_v46_apply, val_main_v45_apply, val_main_v44_apply, val_main_v43_apply,
    val_main_v34_apply, val_main_v33_apply, val_main_v25_apply, val_main_v24_apply, val_main_v23_apply,
    val_main_v22_apply, val_main_v21_apply, val_main_v20_apply, val_main_v19_apply, val_main_v18_apply,
    val_main_v17_apply, val_main_v16_apply, val_main_v15_apply, val_main_v14_apply, val_main_v13_apply,
    val_main_v12_apply, val_main_cst_apply, val_main_cst_0_apply, val_main_cst_1_apply, val_main_cst_2_apply,
    val_main_cst_10_apply, val_main_cst_11_apply, val_main_cst_12_apply]
  simp only [idx_v12_eq, idx_v19_eq, idx_v33_eq, idx_v44_eq, idx_v51_eq, idx_v60_eq,
    Ideal.ofBits_def, Ideal.addf_def, Ideal.subf_def, Ideal.mulf_def, Ideal.hostDivf_def, Ideal.hostUnary_exp_def,
    Ideal.hostUnary_tanh_def, Ideal.hostNegf_def, Ideal.negf_def, Ideal.maximumf_def, Ideal.minimumf_def]
  rfl

/-- The new hidden state at row `p`, column `j`: the same mixture with the output gate (row `2048 + p` of the
    pre-activation) applied to tanh of the new cell state, and the old hidden state at the same entry. -/
theorem hnew_entry (p : Fin 1024) (j : Fin 4096) :
    val_main_v81 (F := Ideal) A0 A1 A2 A3 A4 A5 A6 A7 A8 A9 (ix2 p j) =
      cellH (sigm (val_main_v11 (F := Ideal) A1 A2 A3 A4 A5 A6 A7 A8 A9 (ix2 (⟨2048 + p.val, by have := p.isLt; omega⟩ : Fin 4097) j)))
        (Ideal.tanh (val_main_v62 (F := Ideal) A0 A1 A2 A3 A4 A5 A6 A7 A8 A9 (ix2 p j)))
        (A4 (ix2 0 j)) (A5 (ix2 0 j)) (A2 (ix2 p j)) := by
  rw [val_main_v81_apply, val_main_v80_apply, val_main_v79_apply, val_main_v78_apply, val_main_v77_apply,
    val_main_v76_apply, val_main_v75_apply, val_main_v74_apply, val_main_v73_apply, val_main_v72_apply,
    val_main_v71_apply, val_main_v70_apply, val_main_v69_apply, val_main_v68_apply, val_main_v67_apply,
    val_main_v66_apply, val_main_v65_apply, val_main_v64_apply, val_main_v63_apply, val_main_v32_apply,
    val_main_v31_apply, val_main_v30_apply, val_main_v29_apply, val_main_v28_apply, val_main_v27_apply,
    val_main_v26_apply, val_main_cst_3_apply, val_main_cst_4_apply, val_main_cst_13_apply,
    val_main_cst_14_apply, val_main_cst_15_apply]
  simp only [idx_v26_eq, idx_v64_eq, idx_v72_eq, idx_v78_eq,
    Ideal.ofBits_def, Ideal.addf_def, Ideal.subf_def, Ideal.mulf_def, Ideal.hostDivf_def, Ideal.hostUnary_exp_def,
    Ideal.hostUnary_tanh_def, Ideal.hostNegf_def, Ideal.negf_def, Ideal.maximumf_def, Ideal.minimumf_def]
  rfl

/-- The new boundary indicator at column `j`: the hard sigmoid of row 4096 of the pre-activation (halved by a
    quotient by 2, clipped below at 0 and then above at 1), thresholded at one half, in the straight-through form
    `zh + (step − zh)` the program spells. -/
theorem znew_entry (j : Fin 4096) :
    val_main_v86 (F := Ideal) A1 A2 A3 A4 A5 A6 A7 A8 A9 (ix2 0 j) =
      hardDiv (val_main_v11 (F := Ideal) A1 A2 A3 A4 A5 A6 A7 A8 A9 (ix2 (⟨4096, by omega⟩ : Fin 4097) j)) +
        (FloatOps.uitofp (F := Ideal) .f32
            (FloatOps.cmpf (F := Ideal) (φ := .f32) .ogt (hardDiv (val_main_v11 (F := Ideal) A1 A2 A3 A4 A5 A6 A7 A8 A9 (ix2 (⟨4096, by omega⟩ : Fin 4097) j))) wHalf) -
          hardDiv (val_main_v11 (F := Ideal) A1 A2 A3 A4 A5 A6 A7 A8 A9 (ix2 (⟨4096, by omega⟩ : Fin 4097) j))) := by
  rw [val_main_v86_apply, val_main_v85_apply, val_main_v84_apply, val_main_v83_apply, val_main_v82_apply,
    val_main_v42_apply, val_main_call0_v4_apply, val_main_call0_v3_apply, val_main_call0_v2_apply,
    val_main_call0_v1_apply, val_main_call0_v0_apply, val_main_v41_apply, val_main_v40_apply,
    val_main_v39_apply, val_main_v38_apply, val_main_v37_apply, val_main_v36_apply, val_main_v35_apply,
    val_main_cst_5_apply, val_main_cst_6_apply, val_main_cst_7_apply, val_main_cst_8_apply,
    val_main_cst_9_apply, val_main_cst_16_apply]
  simp only [idx_v35_eq,
    Ideal.ofBits_def, Ideal.addf_def, Ideal.subf_def, Ideal.mulf_def, Ideal.hostDivf_def, Ideal.hostUnary_exp_def,
    Ideal.hostUnary_tanh_def, Ideal.hostNegf_def, Ideal.negf_def, Ideal.maximumf_def, Ideal.minimumf_def]
  rfl

end Cert.ReferenceIdeal.Entries

end
-- ==== Proof.CellLaws.lean ====
/-
  The laws of the extended reals that join the two programs' spellings of the cell update.

  1. The float words 1.0, 0.0, 0.5, 2.0 denote the reals 1, 0, 1/2, 2.
  2. The logistic function and its spelling "negate, exponential, add one, divide one by" are one function.
  3. A per-column scalar z moves across a contraction sum:  Σ_k u(k)·(t(k)·z) = z · Σ_k u(k)·t(k).  This uses
     distributivity, which holds on the reals but not at the infinities, so every entry is assumed real.
     With it, a single contraction over the three joined stretches equals the three separately scaled ones.
  4. Halving by a product with 0.5 and by a quotient by 2 agree on every extended real, so the two hard sigmoids
     agree; a hard sigmoid lies between 0 and 1, hence is real.
  5. For a real zh, the straight-through form zh + (step − zh) is step; and a one-bit word read signed after
     widening to 32 bits is the same number as read unsigned.
-/
import proofs.«149303_j13778255086021_2_alg».proof.Proof.Cell
import Idealize.ShloMosaic.Lib.ValueIdx

noncomputable section

open scoped BigOperators

namespace Cert.Cell

open Idealize.ShloMosaic

/-! ## The float words -/

theorem w1_eq : w1 = 1 := by
  simp [Ideal.ofBits, Ideal.ieee, -EReal.coe_mul]; norm_num
theorem w0_eq : w0 = 0 := by
  simp [Ideal.ofBits, Ideal.ieee]
theorem wHalf_eq : wHalf = ((1 / 2 : ℝ) : EReal) := by
  simp [Ideal.ofBits, Ideal.ieee, -EReal.coe_mul]; norm_num
theorem w2_eq : w2 = ((2 : ℝ) : EReal) := by
  simp [Ideal.ofBits, Ideal.ieee, -EReal.coe_mul]; norm_num

/-! ## The logistic function -/

theorem logistic_eq_sigm (x : EReal) : Ideal.logistic x = sigm x := by
  unfold sigm Ideal.logistic
  rw [w1_eq]

/-! ## A scalar across a contraction sum -/

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For real entries, Σ_k u(k)·(t(k)·z) = z · Σ_k u(k)·t(k). -/
theorem scaled_sum {n : Nat} (u t : Fin n → EReal) (z : EReal)
    (hu : ∀ k, ∃ r : ℝ, u k = (r : EReal)) (ht : ∀ k, ∃ r : ℝ, t k = (r : EReal)) (hz : ∃ r : ℝ, z = (r : EReal)) :
    ∑ k, u k * (t k * z) = z * ∑ k, u k * t k := by
  choose u' hu' using hu
  choose t' ht' using ht
  obtain ⟨z', rfl⟩ := hz
  simp only [hu', ht', ← EReal.coe_mul, ← coe_sum]
  congr 1
  rw [Finset.mul_sum]
  exact Finset.sum_congr rfl fun k _ => by ring

/-- One contraction over the three joined stretches, the second and third scaled inside, is the pre-activation
    with the indicators outside the sums. -/
theorem pre_fused {n : Nat} (sW b : EReal) (u t v h : Fin n → EReal) (z zb : EReal)
    (hu : ∀ k, ∃ r : ℝ, u k = (r : EReal)) (ht : ∀ k, ∃ r : ℝ, t k = (r : EReal))
    (hv : ∀ k, ∃ r : ℝ, v k = (r : EReal)) (hh : ∀ k, ∃ r : ℝ, h k = (r : EReal))
    (hz : ∃ r : ℝ, z = (r : EReal)) (hzb : ∃ r : ℝ, zb = (r : EReal)) :
    ((sW + ∑ k, u k * (t k * z)) + ∑ k, v k * (h k * zb)) + b = pre sW (∑ k, u k * t k) (∑ k, v k * h k) z zb b := by
  unfold pre
  rw [scaled_sum u t z hu ht hz, scaled_sum v h zb hv hh hzb]

/-! ## The hard sigmoid -/

theorem hardMul_eq_hardDiv (x : EReal) : hardMul x = hardDiv x := by
  unfold hardMul hardDiv
  rw [w2_eq, Ideal.div_coe (by norm_num : (2 : ℝ) ≠ 0), wHalf_eq]

theorem hardDiv_real (x : EReal) : ∃ r : ℝ, hardDiv x = (r : EReal) := by
  unfold hardDiv
  rw [w1_eq, w0_eq]
  refine ⟨(min (1 : EReal) (max 0 (Ideal.div (x * 1 + 1) w2))).toReal, (EReal.coe_toReal ?_ ?_).symm⟩
  · exact ne_top_of_le_ne_top (by exact_mod_cast EReal.coe_ne_top 1) (min_le_left _ _)
  · exact ne_bot_of_le_ne_bot (by exact_mod_cast EReal.coe_ne_bot 0) (le_min (by norm_num) (le_max_left _ _))

/-! ## The threshold -/

/-- A one-bit word widened to 32 bits and read signed is the word read unsigned. -/
theorem widened_bit (b : BitVec 1) : ((b.setWidth 32).toInt : ℝ) = (b.toNat : ℝ) := by
  by_cases h : b = 1#1
  · subst h; norm_num
  · have h0 := ValueIdx.eq_zero_of_ne_one h
    subst h0; norm_num

/-- For a real zh the straight-through form zh + (step − zh) is the step, whichever way the step's bit is read. -/
theorem straight_through (zh : EReal) (hz : ∃ r : ℝ, zh = (r : EReal)) (b : BitVec 1) :
    FloatOps.sitofp (F := Ideal) .f32 (b.setWidth 32) = zh + (FloatOps.uitofp (F := Ideal) .f32 b - zh) := by
  obtain ⟨r, rfl⟩ := hz
  show (((b.setWidth 32).toInt : ℝ) : EReal) = (r : EReal) + (((b.toNat : ℝ) : EReal) - (r : EReal))
  rw [widened_bit, ← EReal.coe_sub, ← EReal.coe_add]
  congr 1
  ring

end Cert.Cell

end
-- ==== Proof.Finite.lean ====
/-
  Every entry of the ten input arrays is a real number.

  The precondition compares, entry by entry, the absolute value |x| of each input with +infinity
  (the 32-bit pattern 0x7F800000), takes the conjunction of these comparisons over each whole array, and
  then the conjunction of the ten results; it states that the outcome is the one-bit word 1. Entries are
  extended reals, and |x| is max x (-x). For x = +infinity and for x = -infinity this maximum is +infinity,
  which is not strictly below +infinity, so neither can occur: x is the image of a real number r.

  The proof follows the precondition's own shape: a conjunction of one-bit words is 1 exactly when both
  words are 1 (nine times, peeling the ten conjuncts off from the last); a conjunction over a whole array
  that is 1 has a 1 at every index (the result array has a single index, so every entry reduces into it);
  and the comparison at one entry is the element fact above.
-/
import proofs.«149303_j13778255086021_2_alg».proof.Defs
import proofs.«149303_j13778255086021_2_alg».proof.Proof.Gen.Pre_finite_inputs
import Idealize.ShloMosaic.Lib.ReduceAll
import Idealize.ShloMosaic.Lib.ValueIdx

noncomputable section

namespace Cert.Finite

open Idealize.ShloMosaic Idealize.SL.Sem
open Cert.Pre_finite_inputs

/-- The shape with no axes has exactly one index: the empty tuple of coordinates. -/
instance subsingleton_scalar_idx : Subsingleton S_.Idx := ⟨fun a b => funext fun d => d.elim0⟩

/-- The 32-bit pattern with exponent all ones, fraction zero and sign clear denotes +infinity. -/
theorem top_word : Ideal.ofBits .f32 0x7F800000#32 = (⊤ : EReal) := by simp [Ideal.ofBits, Ideal.ieee]

/-- One entry: if |x| = max x (-x) is strictly below +infinity then x is a real number. For x = -infinity
    and for x = +infinity the maximum is +infinity, and +infinity < +infinity is false. -/
theorem real_of_abs_lt (x : EReal)
    (h : Ideal.cmp .olt (max x (-x)) (Ideal.ofBits .f32 0x7F800000#32) = 1#1) : ∃ r : ℝ, x = (r : EReal) := by
  rw [top_word] at h
  induction x using EReal.rec with
  | bot => exact absurd h (by simp [Ideal.cmp])
  | coe r => exact ⟨r, rfl⟩
  | top => exact absurd h (by simp [Ideal.cmp])

/-- One array, of any shape: if the conjunction over all indices of "|a i| < +infinity" is 1, then every
    entry of a is a real number. The conjunction being 1 gives the comparison at each index i, and the
    comparison at i is the element fact for a i (the constant +infinity, spread over the array's shape,
    reads +infinity at every index). -/
theorem real_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := fun i =>
  real_of_abs_lt (a i) (Host.reduce_andi_all _ _ hr hu ValueIdx.ix0 h i)

/-- A pointwise conjunction of two arrays of one-bit words is 1 at an index exactly when both are. -/
theorem andi_split {s : Shape} (x y : IVec s 1) (j : s.Idx) (h : andi x y j = 1#1) : x j = 1#1 ∧ y j = 1#1 :=
  IntOp.andi_eq_one.1 h

/-- The precondition, read back: when it evaluates to 1 on ten arrays, every entry of each is a real number.
    The ten per-array results are joined by nine conjunctions nested to the left, so the last array's result
    comes off first and the first two come off together at the end. -/
theorem real_of_pre (a0 a1 a2 a3 : FVec Ideal S1024x4096 .f32) (a4 a5 : FVec Ideal S1x4096 .f32)
    (a6 a7 a8 : FVec Ideal S4097x1024 .f32) (a9 : FVec Ideal S4097 .f32)
    (h : Cert.Pre_finite_inputs.fn (F := Ideal) a0 a1 a2 a3 a4 a5 a6 a7 a8 a9 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal)) := by
  have e := congrFun h ValueIdx.ix0
  unfold Cert.Pre_finite_inputs.fn Cert.Pre_finite_inputs.fn_part1 Cert.Pre_finite_inputs.fn_part2 at e
  dsimp only at e
  obtain ⟨e, h9⟩ := andi_split _ _ _ e
  obtain ⟨e, h8⟩ := andi_split _ _ _ e
  obtain ⟨e, h7⟩ := andi_split _ _ _ e
  obtain ⟨e, h6⟩ := andi_split _ _ _ e
  obtain ⟨e, h5⟩ := andi_split _ _ _ e
  obtain ⟨e, h4⟩ := andi_split _ _ _ e
  obtain ⟨e, h3⟩ := andi_split _ _ _ e
  obtain ⟨e, h2⟩ := andi_split _ _ _ e
  obtain ⟨h0, h1⟩ := andi_split _ _ _ e
  exact ⟨real_of_all a0 _ _ _ h0, real_of_all a1 _ _ _ h1, real_of_all a2 _ _ _ h2, real_of_all a3 _ _ _ h3,
    real_of_all a4 _ _ _ h4, real_of_all a5 _ _ _ h5, real_of_all a6 _ _ _ h6, real_of_all a7 _ _ _ h7,
    real_of_all a8 _ _ _ h8, real_of_all a9 _ _ _ h9⟩

/-- The same of a memory that satisfies the precondition: on every device, every entry of each of the ten
    argument arrays is a real number. -/
theorem real_of_pre_mem (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal)) :=
  real_of_pre _ _ _ _ _ _ _ _ _ _ (h c)

end Cert.Finite

end
-- ==== Proof.Results.lean ====
/-
  The kernel's three result arrays are the reference's three results.

  Entry by entry: at grid point t the kernel's block entry (p, q) belongs to column j = 128·t + q of the batch.
  Its pre-activation rows are one contraction over the three joined stretches of the prepared weights against the
  three input blocks, the second and third scaled by the column's indicators; for real inputs that is the
  reference's pre-activation — three separate contractions, the indicators outside — because a scalar moves across
  a finite sum of reals.  The gates, the cell update and the hidden update are then the same functions of the same
  numbers; the boundary row needs no such step, and its threshold is the reference's straight-through form because
  a hard sigmoid is real.  The 32 blocks of 128 columns tile each result array, so each array as a whole is the
  reference's.
-/
import proofs.«149303_j13778255086021_2_alg».proof.Proof.Prepared
import proofs.«149303_j13778255086021_2_alg».proof.Proof.KernelEntries
import proofs.«149303_j13778255086021_2_alg».proof.Proof.ReferenceEntries
import proofs.«149303_j13778255086021_2_alg».proof.Proof.CellLaws
import proofs.«149303_j13778255086021_2_alg».proof.Proof.Finite

set_option maxRecDepth 16384

noncomputable section

namespace Cert.KernelIdeal.Results

open Cert.KernelIdeal Cert.KernelIdeal.Gen Cert.KernelIdeal.Launched Cert.KernelIdeal.Prepared
open Idealize.ShloMosaic Idealize.ShloMosaic.TcCoe Idealize.SL.Sem Idealize.ShloMosaic.ValueIdx
open Idealize.ShloMosaic.Pipeline (Dat)
open Cert.Cell

variable (m : (ℓ : Loc nD τ sig) → Buf (Elt Ideal) ℓ)

/-! ## The reference's results, of this program's argument arrays -/

/-- The new hidden state. -/
def Gh (c : Dev nD) : S1024x4096.Idx → EReal := Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- The new cell state. -/
def Gc (c : Dev nD) : S1024x4096.Idx → EReal := Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- The new boundary indicator. -/
def Gz (c : Dev nD) : S1x4096.Idx → EReal := Cert.ReferenceIdeal.Read.val_main_v86 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- The pre-activation. -/
def Gs (c : Dev nD) : Cert.ReferenceIdeal.S4097x4096.Idx → EReal := Cert.ReferenceIdeal.Read.val_main_v11 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem hz : (![0, 0] : Fin 2 → Nat) = fun _ => 0 := funext fun a => by fin_cases a <;> rfl

/-! ## The pre-activation -/

/-- Rows 0 … 4095: the kernel's one contraction over the joined stretches, plus the bias column, is the reference's
    pre-activation at the block entry's place in the whole arrays. -/
theorem pre_agree (h : Cert.Pre_KernelIdeal m) (c : Dev nD) (t : Fin cfg0.N) (r : Fin 4096) (q : Fin 128) :
    k0_pay5 (iblk m c 0 t) (iblk m c 1 t) (iblk m c 3 t) (iblk m c 4 t) (iblk m c 5 t) (iblk m c 7 t) (iblk m c 8 t) (ix2 r q) = Gs m c (ix2 (⟨r.val, by omega⟩ : Fin 4097) (⟨128 * t.val + q.val, by have := point_lt t; omega⟩ : Fin 4096)) := by
  obtain ⟨-, h1, h2, h3, h4, h5, h6, h7, -, -⟩ := Cert.Finite.real_of_pre_mem m h c
  unfold Gs
  rw [Cert.KernelIdeal.Entries.pre_main, Cert.ReferenceIdeal.Entries.fs_entry]
  have eW : ∀ k : Fin 1024, iblk m c 0 t (ix2 r (⟨k.val, by have := k.isLt; omega⟩ : Fin 3072)) = (m ((c : Thread nD τ).loc main_arg8)) (ix2 (⟨r.val, by omega⟩ : Fin 4097) k) :=
    fun k => (blk0 m c t r _).trans (joined_W m c r k)
  have eU' : ∀ k : Fin 1024, iblk m c 0 t (ix2 r (⟨1024 + k.val, by have := k.isLt; omega⟩ : Fin 3072)) = (m ((c : Thread nD τ).loc main_arg7)) (ix2 (⟨r.val, by omega⟩ : Fin 4097) k) :=
    fun k => (blk0 m c t r _).trans (joined_U' m c r k)
  have eU : ∀ k : Fin 1024, iblk m c 0 t (ix2 r (⟨2048 + k.val, by have := k.isLt; omega⟩ : Fin 3072)) = (m ((c : Thread nD τ).loc main_arg6)) (ix2 (⟨r.val, by omega⟩ : Fin 4097) k) :=
    fun k => (blk0 m c t r _).trans (joined_U m c r k)
  have eb : iblk m c 1 t (ix2 (⟨r.val, by omega⟩ : Fin 4097) (0 : Fin 1)) = (m ((c : Thread nD τ).loc main_arg9)) (ix1 (⟨r.val, by omega⟩ : Fin 4097)) :=
    (blk1 m c t _).trans (column_entry m c _)
  simp only [eW, eU', eU, eb, blk3 m c t, blk4 m c t, blk5 m c t, blk7 m c t, blk8 m c t]
  exact pre_fused _ _ (fun k => (m ((c : Thread nD τ).loc main_arg7)) (ix2 (⟨r.val, by omega⟩ : Fin 4097) k)) (fun k => (m ((c : Thread nD τ).loc main_arg3)) (ix2 k (⟨128 * t.val + q.val, by have := point_lt t; omega⟩ : Fin 4096)))
    (fun k => (m ((c : Thread nD τ).loc main_arg6)) (ix2 (⟨r.val, by omega⟩ : Fin 4097) k)) (fun k => (m ((c : Thread nD τ).loc main_arg2)) (ix2 k (⟨128 * t.val + q.val, by have := point_lt t; omega⟩ : Fin 4096))) _ _
    (fun k => h7 _) (fun k => h3 _) (fun k => h6 _) (fun k => h2 _) (h4 _) (h5 _)

/-! ## The new cell state -/

theorem cnew_agree (h : Cert.Pre_KernelIdeal m) (c : Dev nD) (t : Fin cfg0.N) (p : Fin 1024) (q : Fin 128) :
    k0_pay1 (k0_pay16 (iblk m c 6 t) (iblk m c 7 t) (iblk m c 8 t) (k0_pay7 (iblk m c 0 t) (iblk m c 1 t) (iblk m c 3 t) (iblk m c 4 t) (iblk m c 5 t) (iblk m c 7 t) (iblk m c 8 t)) (k0_pay9 (iblk m c 0 t) (iblk m c 1 t) (iblk m c 3 t) (iblk m c 4 t) (iblk m c 5 t) (iblk m c 7 t) (iblk m c 8 t))) (k0_pay17 (iblk m c 6 t) (k0_pay6 (iblk m c 0 t) (iblk m c 1 t) (iblk m c 3 t) (iblk m c 4 t) (iblk m c 5 t) (iblk m c 7 t) (iblk m c 8 t)) (k0_pay7 (iblk m c 0 t) (iblk m c 1 t) (iblk m c 3 t) (iblk m c 4 t) (iblk m c 5 t) (iblk m c 7 t) (iblk m c 8 t)) (k0_pay9 (iblk m c 0 t) (iblk m c 1 t) (iblk m c 3 t) (iblk m c 4 t) (iblk m c 5 t) (iblk m c 7 t) (iblk m c 8 t))) (k0_pay18 (iblk m c 7 t) (iblk m c 8 t)) (ix2 p q) = Gc m c (ix2 p (⟨128 * t.val + q.val, by have := point_lt t; omega⟩ : Fin 4096)) := by
  unfold Gc
  rw [Cert.KernelIdeal.Entries.cnew_entry, Cert.ReferenceIdeal.Entries.cnew_entry,
    Cert.KernelIdeal.Entries.gate_f, Cert.KernelIdeal.Entries.gate_i, Cert.KernelIdeal.Entries.gate_g,
    logistic_eq_sigm, logistic_eq_sigm, pre_agree m h, pre_agree m h, pre_agree m h, blk6, blk7, blk8]
  rfl

/-! ## The new hidden state -/

theorem hnew_agree (h : Cert.Pre_KernelIdeal m) (c : Dev nD) (t : Fin cfg0.N) (p : Fin 1024) (q : Fin 128) :
    k0_pay2 (iblk m c 5 t) (iblk m c 7 t) (iblk m c 8 t) (k0_pay8 (iblk m c 0 t) (iblk m c 1 t) (iblk m c 3 t) (iblk m c 4 t) (iblk m c 5 t) (iblk m c 7 t) (iblk m c 8 t)) (k0_pay16 (iblk m c 6 t) (iblk m c 7 t) (iblk m c 8 t) (k0_pay7 (iblk m c 0 t) (iblk m c 1 t) (iblk m c 3 t) (iblk m c 4 t) (iblk m c 5 t) (iblk m c 7 t) (iblk m c 8 t)) (k0_pay9 (iblk m c 0 t) (iblk m c 1 t) (iblk m c 3 t) (iblk m c 4 t) (iblk m c 5 t) (iblk m c 7 t) (iblk m c 8 t))) (k0_pay17 (iblk m c 6 t) (k0_pay6 (iblk m c 0 t) (iblk m c 1 t) (iblk m c 3 t) (iblk m c 4 t) (iblk m c 5 t) (iblk m c 7 t) (iblk m c 8 t)) (k0_pay7 (iblk m c 0 t) (iblk m c 1 t) (iblk m c 3 t) (iblk m c 4 t) (iblk m c 5 t) (iblk m c 7 t) (iblk m c 8 t)) (k0_pay9 (iblk m c 0 t) (iblk m c 1 t) (iblk m c 3 t) (iblk m c 4 t) (iblk m c 5 t) (iblk m c 7 t) (iblk m c 8 t))) (k0_pay18 (iblk m c 7 t) (iblk m c 8 t)) (ix2 p q) = Gh m c (ix2 p (⟨128 * t.val + q.val, by have := point_lt t; omega⟩ : Fin 4096)) := by
  unfold Gh
  rw [Cert.KernelIdeal.Entries.hnew_entry, Cert.ReferenceIdeal.Entries.hnew_entry,
    Cert.KernelIdeal.Entries.gate_o, logistic_eq_sigm, pre_agree m h, cnew_agree m h, blk5, blk7, blk8]
  rfl

/-! ## The new boundary indicator -/

theorem znew_agree (c : Dev nD) (t : Fin cfg0.N) (q : Fin 128) :
    k0_pay14 (iblk m c 3 t) (iblk m c 4 t) (iblk m c 5 t) (iblk m c 7 t) (iblk m c 8 t) (k0_pay10 (iblk m c 2 t)) (k0_pay11 (iblk m c 2 t)) (k0_pay12 (iblk m c 1 t)) (k0_pay13 (iblk m c 2 t)) (ix2 (0 : Fin 1) q) = Gz m c (ix2 (0 : Fin 1) (⟨128 * t.val + q.val, by have := point_lt t; omega⟩ : Fin 4096)) := by
  unfold Gz
  rw [Cert.KernelIdeal.Entries.znew_entry, Cert.ReferenceIdeal.Entries.znew_entry, Cert.ReferenceIdeal.Entries.fs_entry]
  have e0 : ∀ k : Fin 1024, iblk m c 2 t (ix2 (0 : Fin 3) k) = (m ((c : Thread nD τ).loc main_arg8)) (ix2 (⟨4096, by omega⟩ : Fin 4097) k) :=
    fun k => (blk2 m c t 0 k).trans (stacked_rows m c k).1
  have e1 : ∀ k : Fin 1024, iblk m c 2 t (ix2 (1 : Fin 3) k) = (m ((c : Thread nD τ).loc main_arg7)) (ix2 (⟨4096, by omega⟩ : Fin 4097) k) :=
    fun k => (blk2 m c t 1 k).trans (stacked_rows m c k).2.1
  have e2 : ∀ k : Fin 1024, iblk m c 2 t (ix2 (2 : Fin 3) k) = (m ((c : Thread nD τ).loc main_arg6)) (ix2 (⟨4096, by omega⟩ : Fin 4097) k) :=
    fun k => (blk2 m c t 2 k).trans (stacked_rows m c k).2.2
  have eb : iblk m c 1 t (ix2 (⟨4096, by omega⟩ : Fin 4097) (0 : Fin 1)) = (m ((c : Thread nD τ).loc main_arg9)) (ix1 (⟨4096, by omega⟩ : Fin 4097)) :=
    (blk1 m c t _).trans (column_entry m c _)
  simp only [e0, e1, e2, eb, blk3 m c t, blk4 m c t, blk5 m c t, blk7 m c t, blk8 m c t]
  rw [hardMul_eq_hardDiv]
  exact straight_through _ (hardDiv_real _) _

/-! ## From blocks to arrays -/

theorem emb9 (t : Fin cfg0.N) (p : Fin 1024) (q : Fin 128) :
    ((cfg0.win 9).blk t).view.emb (ix2 p q) = (ix2 p (⟨128 * t.val + q.val, by have := point_lt t; omega⟩ : Fin 4096) : S1024x4096.Idx) := by
  have e := idx_facts t
  have e0 : win0_9.index t (0 : Fin 2) = 0 := by omega
  have e1 : win0_9.index t (1 : Fin 2) = t.val := by omega
  refine funext fun a => Fin.ext ?_
  match a with
  | ⟨0, _⟩ => show win0_9.index t (0 : Fin 2) * 1024 + 1 * p.val = p.val; omega
  | ⟨1, _⟩ => show win0_9.index t (1 : Fin 2) * 128 + 1 * q.val = 128 * t.val + q.val; omega
theorem emb10 (t : Fin cfg0.N) (p : Fin 1024) (q : Fin 128) :
    ((cfg0.win 10).blk t).view.emb (ix2 p q) = (ix2 p (⟨128 * t.val + q.val, by have := point_lt t; omega⟩ : Fin 4096) : S1024x4096.Idx) := by
  have e := idx_facts t
  have e0 : win0_10.index t (0 : Fin 2) = 0 := by omega
  have e1 : win0_10.index t (1 : Fin 2) = t.val := by omega
  refine funext fun a => Fin.ext ?_
  match a with
  | ⟨0, _⟩ => show win0_10.index t (0 : Fin 2) * 1024 + 1 * p.val = p.val; omega
  | ⟨1, _⟩ => show win0_10.index t (1 : Fin 2) * 128 + 1 * q.val = 128 * t.val + q.val; omega
theorem emb11 (t : Fin cfg0.N) (q : Fin 128) :
    ((cfg0.win 11).blk t).view.emb (ix2 (0 : Fin 1) q) = (ix2 (0 : Fin 1) (⟨128 * t.val + q.val, by have := point_lt t; omega⟩ : Fin 4096) : S1x4096.Idx) := by
  have e := idx_facts t
  have e0 : win0_11.index t (0 : Fin 2) = 0 := by omega
  have e1 : win0_11.index t (1 : Fin 2) = t.val := by omega
  refine funext fun a => Fin.ext ?_
  match a with
  | ⟨0, _⟩ => show win0_11.index t (0 : Fin 2) * 1 + 1 * 0 = 0; omega
  | ⟨1, _⟩ => show win0_11.index t (1 : Fin 2) * 128 + 1 * q.val = 128 * t.val + q.val; omega

/-- What point t writes back into the new hidden state is block t of the reference's. -/
theorem flushed9 (h : Cert.Pre_KernelIdeal m) (c : Dev nD) (t : Fin cfg0.N) :
    (dats m 0 c).flushed 9 t = ((cfg0.win 9).blk t).view.read (Elt Ideal) (Gh m c) := by
  show (cfg0.win 9).cut (grid0.coords t) ((dats m 0 c).after 9 t) = _
  rw [after0_9]
  unfold out0_9
  rw [View.canon_unit_zero hz]
  simp only [View.ld_unit_zero (S := S4096x3072) hz, View.ld_unit_zero (S := S4097x1) hz, View.ld_unit_zero (S := S3x1024) hz, View.ld_unit_zero (S := S1024x128) hz, View.ld_unit_zero (S := S1x128) hz]
  funext y
  obtain ⟨p, q, rfl⟩ : ∃ (p : Fin 1024) (q : Fin 128), y = ix2 p q := ⟨y 0, y 1, eq_ix2 y⟩
  show _ = Gh m c (((cfg0.win 9).blk t).view.emb (ix2 p q))
  rw [emb9]
  exact hnew_agree m h c t p q

/-- What point t writes back into the new cell state is block t of the reference's. -/
theorem flushed10 (h : Cert.Pre_KernelIdeal m) (c : Dev nD) (t : Fin cfg0.N) :
    (dats m 0 c).flushed 10 t = ((cfg0.win 10).blk t).view.read (Elt Ideal) (Gc m c) := by
  show (cfg0.win 10).cut (grid0.coords t) ((dats m 0 c).after 10 t) = _
  rw [after0_10]
  unfold out0_10
  rw [View.canon_unit_zero hz]
  simp only [View.ld_unit_zero (S := S4096x3072) hz, View.ld_unit_zero (S := S4097x1) hz, View.ld_unit_zero (S := S3x1024) hz, View.ld_unit_zero (S := S1024x128) hz, View.ld_unit_zero (S := S1x128) hz]
  funext y
  obtain ⟨p, q, rfl⟩ : ∃ (p : Fin 1024) (q : Fin 128), y = ix2 p q := ⟨y 0, y 1, eq_ix2 y⟩
  show _ = Gc m c (((cfg0.win 10).blk t).view.emb (ix2 p q))
  rw [emb10]
  exact cnew_agree m h c t p q

/-- What point t writes back into the new boundary indicator is block t of the reference's. -/
theorem flushed11 (c : Dev nD) (t : Fin cfg0.N) :
    (dats m 0 c).flushed 11 t = ((cfg0.win 11).blk t).view.read (Elt Ideal) (Gz m c) := by
  show (cfg0.win 11).cut (grid0.coords t) ((dats m 0 c).after 11 t) = _
  rw [after0_11]
  unfold out0_11
  rw [View.canon_unit_zero hz]
  simp only [View.ld_unit_zero (S := S4096x3072) hz, View.ld_unit_zero (S := S4097x1) hz, View.ld_unit_zero (S := S3x1024) hz, View.ld_unit_zero (S := S1024x128) hz, View.ld_unit_zero (S := S1x128) hz]
  funext y
  obtain ⟨u, q, rfl⟩ : ∃ (u : Fin 1) (q : Fin 128), y = ix2 u q := ⟨y 0, y 1, eq_ix2 y⟩
  obtain rfl : u = 0 := Subsingleton.elim _ _
  show _ = Gz m c (((cfg0.win 11).blk t).view.emb (ix2 (0 : Fin 1) q))
  rw [emb11]
  exact znew_agree m c t q

theorem mem_blk9 (t : Fin cfg0.N) (i : S1024x4096.Idx) :
    i ∈ ((cfg0.win 9).blk t).view.set ↔ ∀ a : Fin 2, win0_9.index t a * S1024x128.size a ≤ (i a).val ∧ (i a).val < win0_9.index t a * S1024x128.size a + S1024x128.size a := by
  show i ∈ ((View.whole main_v10_0).slice (win0_9.rect t)).set ↔ _
  rw [View.set_slice_whole, Rect.mem_set_unit]
  exact Iff.rfl
theorem mem_blk10 (t : Fin cfg0.N) (i : S1024x4096.Idx) :
    i ∈ ((cfg0.win 10).blk t).view.set ↔ ∀ a : Fin 2, win0_10.index t a * S1024x128.size a ≤ (i a).val ∧ (i a).val < win0_10.index t a * S1024x128.size a + S1024x128.size a := by
  show i ∈ ((View.whole main_v10_1).slice (win0_10.rect t)).set ↔ _
  rw [View.set_slice_whole, Rect.mem_set_unit]
  exact Iff.rfl
theorem mem_blk11 (t : Fin cfg0.N) (i : S1x4096.Idx) :
    i ∈ ((cfg0.win 11).blk t).view.set ↔ ∀ a : Fin 2, win0_11.index t a * S1x128.size a ≤ (i a).val ∧ (i a).val < win0_11.index t a * S1x128.size a + S1x128.size a := by
  show i ∈ ((View.whole main_v10_2).slice (win0_11.rect t)).set ↔ _
  rw [View.set_slice_whole, Rect.mem_set_unit]
  exact Iff.rfl

/-- Every entry lies in the block of the point its column's quotient by 128 names. -/
theorem cover9 (i : S1024x4096.Idx) : ∃ t : Fin cfg0.N, (cfg0.win 9).flush t = true ∧ i ∈ ((cfg0.win 9).blk t).view.set := by
  have hN : cfg0.N = 32 := N_0
  have hi0 : (i 0).val < 1024 := (i 0).isLt
  have hi1 : (i 1).val < 4096 := (i 1).isLt
  let t : Fin cfg0.N := ⟨(i 1).val / 128, by rw [hN]; omega⟩
  have ht : t.val = (i 1).val / 128 := rfl
  have e := idx_facts t
  have e0 : win0_9.index t (0 : Fin 2) = 0 := by omega
  have e1 : win0_9.index t (1 : Fin 2) = t.val := by omega
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 128 ≤ (i 1).val ∧ (i 1).val < win0_9.index t (1 : Fin 2) * 128 + 128; omega
/-- Every entry lies in the block of the point its column's quotient by 128 names. -/
theorem cover10 (i : S1024x4096.Idx) : ∃ t : Fin cfg0.N, (cfg0.win 10).flush t = true ∧ i ∈ ((cfg0.win 10).blk t).view.set := by
  have hN : cfg0.N = 32 := N_0
  have hi0 : (i 0).val < 1024 := (i 0).isLt
  have hi1 : (i 1).val < 4096 := (i 1).isLt
  let t : Fin cfg0.N := ⟨(i 1).val / 128, by rw [hN]; omega⟩
  have ht : t.val = (i 1).val / 128 := rfl
  have e := idx_facts t
  have e0 : win0_10.index t (0 : Fin 2) = 0 := by omega
  have e1 : win0_10.index t (1 : Fin 2) = t.val := by omega
  refine ⟨t, flush0_10 t, ?_⟩
  rw [mem_blk10]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 128 ≤ (i 1).val ∧ (i 1).val < win0_10.index t (1 : Fin 2) * 128 + 128; omega
/-- Every entry lies in the block of the point its column's quotient by 128 names. -/
theorem cover11 (i : S1x4096.Idx) : ∃ t : Fin cfg0.N, (cfg0.win 11).flush t = true ∧ i ∈ ((cfg0.win 11).blk t).view.set := by
  have hN : cfg0.N = 32 := N_0
  have hi0 : (i 0).val < 1 := (i 0).isLt
  have hi1 : (i 1).val < 4096 := (i 1).isLt
  let t : Fin cfg0.N := ⟨(i 1).val / 128, by rw [hN]; omega⟩
  have ht : t.val = (i 1).val / 128 := rfl
  have e := idx_facts t
  have e0 : win0_11.index t (0 : Fin 2) = 0 := by omega
  have e1 : win0_11.index t (1 : Fin 2) = t.val := by omega
  refine ⟨t, flush0_11 t, ?_⟩
  rw [mem_blk11]
  intro a
  match a with
  | ⟨0, _⟩ => show win0_11.index t (0 : Fin 2) * 1 ≤ (i 0).val ∧ (i 0).val < win0_11.index t (0 : Fin 2) * 1 + 1; omega
  | ⟨1, _⟩ => show win0_11.index t (1 : Fin 2) * 128 ≤ (i 1).val ∧ (i 1).val < win0_11.index t (1 : Fin 2) * 128 + 128; omega

/-- Each result array, whole, after the run. -/
theorem final9 (h : Cert.Pre_KernelIdeal m) (c : Dev nD) : (dats m 0 c).arrAt 9 cfg0.N = Gh m c :=
  (dats m 0 c).arrAt_eq_of_cover 9 (Gh m c) (fun t _ => flushed9 m h c t) cover9
theorem final10 (h : Cert.Pre_KernelIdeal m) (c : Dev nD) : (dats m 0 c).arrAt 10 cfg0.N = Gc m c :=
  (dats m 0 c).arrAt_eq_of_cover 10 (Gc m c) (fun t _ => flushed10 m h c t) cover10
theorem final11 (c : Dev nD) : (dats m 0 c).arrAt 11 cfg0.N = Gz m c :=
  (dats m 0 c).arrAt_eq_of_cover 11 (Gz m c) (fun t _ => flushed11 m c t) cover11

/-! ## The run -/

/-- For finite inputs, every weakly fair execution of the kernel program ends, faulting nowhere, with its three
    results at the reference's three results of the same arguments, and the arguments unchanged. -/
theorem run (h : Cert.Pre_KernelIdeal m) (ρ : Dev nD → PrngReg) :
    θ_run defs (onTc (τ := τ) (main (F := Ideal))) ⟨m, fun _ => 0, ρ⟩ (fun r => ∀ c : Dev nD,
      r.2.mem ((c.tc : Thread nD τ).loc main_v10_0) = Gh m c
      ∧ r.2.mem ((c.tc : Thread nD τ).loc main_v10_1) = Gc m c
      ∧ r.2.mem ((c.tc : Thread nD τ).loc main_v10_2) = Gz m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r hr c => ⟨((hr c).1 9).trans (final9 m h c), ((hr c).1 10).trans (final10 m h c),
      ((hr c).1 11).trans (final11 m c),
      ((hr c).1 6).trans (((dats m 0 c).arrAt_in 6 rfl _).trans ((A_eq m c 6).trans (V_main_arg0 m c))),
      ((hr c).1 3).trans (((dats m 0 c).arrAt_in 3 rfl _).trans ((A_eq m c 3).trans (V_main_arg1 m c))),
      ((hr c).1 5).trans (((dats m 0 c).arrAt_in 5 rfl _).trans ((A_eq m c 5).trans (V_main_arg2 m c))),
      ((hr c).1 4).trans (((dats m 0 c).arrAt_in 4 rfl _).trans ((A_eq m c 4).trans (V_main_arg3 m c))),
      ((hr c).1 7).trans (((dats m 0 c).arrAt_in 7 rfl _).trans ((A_eq m c 7).trans (V_main_arg4 m c))),
      ((hr c).1 8).trans (((dats m 0 c).arrAt_in 8 rfl _).trans ((A_eq m c 8).trans (V_main_arg5 m c))),
      ((hr c).2 main_arg6 (Pipeline.mem_restRefs_of main_arg6 (by decide) (by decide))).trans (V_main_arg6 m c),
      ((hr c).2 main_arg7 (Pipeline.mem_restRefs_of main_arg7 (by decide) (by decide))).trans (V_main_arg7 m c),
      ((hr c).2 main_arg8 (Pipeline.mem_restRefs_of main_arg8 (by decide) (by decide))).trans (V_main_arg8 m c),
      ((hr c).2 main_arg9 (Pipeline.mem_restRefs_of main_arg9 (by decide) (by decide))).trans (V_main_arg9 m c)⟩)
    (run_main m ρ)

end Cert.KernelIdeal.Results

end
-- ==== Proof.lean ====
/-
  The certificate of the hierarchical multiscale LSTM cell kernel against its plain reference.

  The kernel program prepares three operands from the weight matrices and the bias, then launches one kernel over
  32 tiles of 128 batch columns; per tile it forms all four gate blocks by ONE matrix product over the three
  joined input blocks (the top-down and recurrent ones pre-scaled by the column's boundary indicators), the
  boundary row by three separate sums, and then the cell and hidden updates.  The reference forms the same
  pre-activations by three matrix products scaled afterwards.  Over the extended reals the two agree for finite
  inputs: a per-column scalar moves across a finite sum of reals; everything after the pre-activation is the same
  function of the same numbers.

  The five conjuncts: each program runs to the end without a fault and leaves its arguments unchanged (the two
  kernel programs by the launch of their one kernel, whose body loads whole blocks and stores whole blocks; the
  reference by its run as a line of array operations); nothing was rewritten between the kernel as written and the
  kernel as read over the extended reals; and the two idealized programs, run from memories that agree on the
  arguments, end with equal results.
-/
import proofs.«149303_j13778255086021_2_alg».proof.Defs
import proofs.«149303_j13778255086021_2_alg».proof.Proof.Gen.Kernel
import proofs.«149303_j13778255086021_2_alg».proof.Proof.Gen.KernelIdeal
import proofs.«149303_j13778255086021_2_alg».proof.Proof.Gen.ReferenceIdeal
import proofs.«149303_j13778255086021_2_alg».proof.Proof.Gen.ReferenceIdeal.Run
import proofs.«149303_j13778255086021_2_alg».proof.Proof.Gen.ReferenceIdeal.Read
import proofs.«149303_j13778255086021_2_alg».proof.Proof.Gen.Pre_finite_inputs
import proofs.«149303_j13778255086021_2_alg».proof.Proof.WordLaunch
import proofs.«149303_j13778255086021_2_alg».proof.Proof.IdealLaunch
import proofs.«149303_j13778255086021_2_alg».proof.Proof.Results
import Idealize.ShloMosaic.Adequacy
import Idealize.ShloMosaic.Init

noncomputable section

namespace Cert.Proof

open Idealize.ShloMosaic Idealize.SL.Sem

/-- The kernel program as written runs to the end and leaves its arguments unchanged. -/
theorem frame_word : Cert.frame_Kernel := fun m ρ _ => Cert.Kernel.Launched.frame m ρ

/-- So does the kernel program read over the extended reals. -/
theorem frame_ideal : Cert.frame_KernelIdeal := fun m ρ _ => Cert.KernelIdeal.Launched.frame m ρ

/-- So does the reference: its run as a line of array operations, the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- No operation was rewritten between the two readings of the kernel program. -/
theorem preserves : Cert.preserves_Kernel_KernelIdeal := trivial

/-- From memories that agree on the ten arguments, the two programs end with the same three results: the kernel
    program's are the reference's functions of ITS arguments, and those arguments are the reference's. -/
theorem algebraic : Cert.algebraic_KernelIdeal_ReferenceIdeal := by
  intro m ρ m' ρ' hpre hagree
  refine ⟨fun c => Cert.KernelIdeal.Results.Gh m c, fun c => Cert.KernelIdeal.Results.Gc m c,
    fun c => Cert.KernelIdeal.Results.Gz m c, Cert.KernelIdeal.Results.run m hpre ρ, ?_⟩
  refine (θ_run Cert.ReferenceIdeal.defs _ _).mono (fun _ h c => ?_) (Cert.ReferenceIdeal.Value.run (F := Ideal) m' ρ')
  obtain ⟨h0, h1, h2, hk⟩ := h c
  obtain ⟨a0, a1, a2, a3, a4, a5, a6, a7, a8, a9⟩ := hagree c
  refine ⟨h0.trans ?_, h1.trans ?_, h2.trans ?_, hk⟩
  · rw [Cert.ReferenceIdeal.Read.val_main_v81_eq, a0, a1, a2, a3, a4, a5, a6, a7, a8, a9]
    rfl
  · rw [Cert.ReferenceIdeal.Read.val_main_v62_eq, a0, a1, a2, a3, a4, a5, a6, a7, a8, a9]
    rfl
  · rw [Cert.ReferenceIdeal.Read.val_main_v86_eq, a1, a2, a3, a4, a5, a6, a7, a8, a9]
    rfl

theorem claim : Cert.Claim := ⟨Cert.Kernel.Gen.facts, Cert.KernelIdeal.Gen.facts, Cert.ReferenceIdeal.Gen.facts, Cert.Pre_finite_inputs.Gen.facts,
  frame_word, frame_ideal, frame_reference, preserves, algebraic⟩

end Cert.Proof

end
